-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x74 : Shape := ⟨2, ![100000, 74]⟩
abbrev S3200000 : Shape := ⟨1, ![3200000]⟩
abbrev S100000 : Shape := ⟨1, ![100000]⟩
abbrev S74x64 : Shape := ⟨2, ![74, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x74 : S_.BroadcastsInDim S100000x74 (![] : Fin 0 → Fin S100000x74.rank)
  reducesTo_S100000x74_S_d0_1 : S100000x74.ReducesTo [0, 1] S_
  h_S_ : 0 < S_.numel
  bcast_S_S74x64 : S_.BroadcastsInDim S74x64 (![] : Fin 0 → Fin S74x64.rank)
  reducesTo_S74x64_S_d0_1 : S74x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg18
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg19
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg14 : FVec F S64x64 .f32) (main_arg15 : FVec F S64 .f32) (main_arg16 : FVec F S64x128 .f32) (main_arg17 : FVec F S128 .f32) (main_arg18 : FVec F S128x1 .f32) (main_arg19 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg16
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg17 main_arg18 main_arg19 main_v63 main_v67

def fn_part2 {F : FTy → Type} [FloatOps F] (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x128 .f32) (main_arg17 : FVec F S128 .f32) (main_arg18 : FVec F S128x1 .f32) (main_arg19 : FVec F S1 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_v48 main_v49 main_v50

def fn_part1 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x128 .f32) (main_arg17 : FVec F S128 .f32) (main_arg18 : FVec F S128x1 .f32) (main_arg19 : FVec F S1 .f32) (main_v13 : IVec S_ 1) (main_v16 : IVec S74x64 1) : IVec S_ 1 :=
  let main_c_5 : IVec S_ 1 := constantI S_ 1 1#1
  let main_v17 : IVec S_ 1 := (fun x v => Host.reduce IntOp.andi x v reducesTo_S74x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S100000x74 .f32) (main_arg1 : IVec S3200000 32) (main_arg2 : IVec S3200000 32) (main_arg3 : IVec S100000 32) (main_arg4 : FVec F S74x64 .f32) (main_arg5 : FVec F S64 .f32) (main_arg6 : FVec F S74x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x128 .f32) (main_arg17 : FVec F S128 .f32) (main_arg18 : FVec F S128x1 .f32) (main_arg19 : FVec F S1 .f32) : IVec S_ 1 :=
  let main_v0 : FVec F S100000x74 .f32 := Host.absf main_arg0
  let main_cst : FVec F S_ .f32 := constant S_ .f32 0x7F800000#32
  let main_v1 : FVec F S100000x74 .f32 := broadcastInDim S100000x74 ![] bcast_S_S100000x74 main_cst
  let main_v2 : IVec S100000x74 1 := cmpf .olt main_v0 main_v1
  let main_c : IVec S_ 1 := constantI S_ 1 1#1
  let main_v3 : IVec S_ 1 := (fun x v => Host.reduce IntOp.andi x v reducesTo_S100000x74_S_d0_1 h_S_) main_v2 main_c
  let main_v4 : FVec F S74x64 .f32 := Host.absf main_arg4
  let main_cst_0 : FVec F S_ .f32 := constant S_ .f32 0x7F800000#32
  let main_v5 : FVec F S74x64 .f32 := broadcastInDim S74x64 ![] bcast_S_S74x64 main_cst_0
  let main_v6 : IVec S74x64 1 := cmpf .olt main_v4 main_v5
  let main_c_1 : IVec S_ 1 := constantI S_ 1 1#1
  let main_v7 : IVec S_ 1 := (fun x v => Host.reduce IntOp.andi x v reducesTo_S74x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S74x64 .f32 := Host.absf main_arg6
  let main_cst_4 : FVec F S_ .f32 := constant S_ .f32 0x7F800000#32
  let main_v15 : FVec F S74x64 .f32 := broadcastInDim S74x64 ![] bcast_S_S74x64 main_cst_4
  let main_v16 : IVec S74x64 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S100000x74 : Shape := ⟨2, ![100000, 74]⟩
abbrev S3200000 : Shape := ⟨1, ![3200000]⟩
abbrev S100000 : Shape := ⟨1, ![100000]⟩
abbrev S74x64 : Shape := ⟨2, ![74, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x64 : Shape := ⟨2, ![1, 64]⟩
abbrev S100000x64 : Shape := ⟨2, ![100000, 64]⟩
abbrev S5000x74 : Shape := ⟨2, ![5000, 74]⟩
abbrev S5000x64 : Shape := ⟨2, ![5000, 64]⟩
abbrev S_ : Shape := ⟨0, ![]⟩
abbrev S3200000x1 : Shape := ⟨2, ![3200000, 1]⟩
abbrev S3200000x64 : Shape := ⟨2, ![3200000, 64]⟩
abbrev S4096x64 : Shape := ⟨2, ![4096, 64]⟩
abbrev S100000x1 : Shape := ⟨2, ![100000, 1]⟩
abbrev S1x128 : Shape := ⟨2, ![1, 128]⟩
abbrev S1x1 : Shape := ⟨2, ![1, 1]⟩
abbrev S4096x1 : Shape := ⟨2, ![4096, 1]⟩
abbrev S4096x128 : Shape := ⟨2, ![4096, 128]⟩

abbrev nBuf : Space → Nat
  | .hbm => 81
  | .vmem => 54
  | .smem => 0
  | _ => 0

abbrev bufTy : (tb : Table) → Fin (tcTables nBuf tb) → BufTy
  | .hbm, ⟨0, _⟩ => ⟨S100000x74, .f32⟩
  | .hbm, ⟨1, _⟩ => ⟨S3200000, .i32⟩
  | .hbm, ⟨2, _⟩ => ⟨S3200000, .i32⟩
  | .hbm, ⟨3, _⟩ => ⟨S100000, .i32⟩
  | .hbm, ⟨4, _⟩ => ⟨S74x64, .f32⟩
  | .hbm, ⟨5, _⟩ => ⟨S64, .f32⟩
  | .hbm, ⟨6, _⟩ => ⟨S74x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x64, .f32⟩
  | .hbm, ⟨32, _⟩ => ⟨S_, .f32⟩
  | .hbm, ⟨33, _⟩ => ⟨S100000x64, .f32⟩
  | .hbm, ⟨34, _⟩ => ⟨S3200000x1, .i32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x64, .f32⟩
  | .hbm, ⟨50, _⟩ => ⟨S_, .f32⟩
  | .hbm, ⟨51, _⟩ => ⟨S100000x64, .f32⟩
  | .hbm, ⟨52, _⟩ => ⟨S3200000x1, .i32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x64, .f32⟩
  | .hbm, ⟨68, _⟩ => ⟨S_, .f32⟩
  | .hbm, ⟨69, _⟩ => ⟨S100000x64, .f32⟩
  | .hbm, ⟨70, _⟩ => ⟨S3200000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S_, .f32⟩
  | .hbm, ⟨75, _⟩ => ⟨S4096x64, .f32⟩
  | .hbm, ⟨76, _⟩ => ⟨S100000x1, .i32⟩
  | .hbm, ⟨77, _⟩ => ⟨S4096x64, .f32⟩
  | .hbm, ⟨78, _⟩ => ⟨S1x128, .f32⟩
  | .hbm, ⟨79, _⟩ => ⟨S1x1, .f32⟩
  | .hbm, ⟨80, _⟩ => ⟨S4096x1, .f32⟩
  | .local _ .vmem, ⟨0, _⟩ => ⟨S5000x74, .f32⟩
  | .local _ .vmem, ⟨1, _⟩ => ⟨S5000x74, .f32⟩
  | .local _ .vmem, ⟨2, _⟩ => ⟨S74x64, .f32⟩
  | .local _ .vmem, ⟨3, _⟩ => ⟨S74x64, .f32⟩
  | .local _ .vmem, ⟨4, _⟩ => ⟨S1x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S64x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S4096x64, .f32⟩
  | .local _ .vmem, ⟨49, _⟩ => ⟨S64x128, .f32⟩
  | .local _ .vmem, ⟨50, _⟩ => ⟨S1x128, .f32⟩
  | .local _ .vmem, ⟨51, _⟩ => ⟨S128x1, .f32⟩
  | .local _ .vmem, ⟨52, _⟩ => ⟨S1x1, .f32⟩
  | .local _ .vmem, ⟨53, _⟩ => ⟨S4096x1, .f32⟩
  | _, _ => ⟨S100000x74, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1_0 : Ref sig .tc := ⟨.hbm, 21, rfl⟩
abbrev main_v1_1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15_0 : Ref sig .tc := ⟨.hbm, 39, rfl⟩
abbrev main_v15_1 : Ref sig .tc := ⟨.hbm, 40, rfl⟩
abbrev main_c_1 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29_0 : Ref sig .tc := ⟨.hbm, 57, rfl⟩
abbrev main_v29_1 : Ref sig .tc := ⟨.hbm, 58, rfl⟩
abbrev main_c_4 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem4_1 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc5_sem3_0 : DmaSem sig := 46
abbrev cc5_sem3_1 : DmaSem sig := 47
abbrev cc6_sem0_0 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x74 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S74x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S74x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S4096x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S4096x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  shapeCasts_S64_S1x64 : S64.ShapeCasts S1x64
  inb_S5000x74_S5000x74_0_0 : ∀ a, (![0, 0] : Fin 2 → Nat) a + S5000x74.size a ≤ S5000x74.size a
  h_S5000x74 : 0 < S5000x74.numel
  bitsLt_bf16_f32 : FTy.bits .bf16 < FTy.bits .f32
  inb_S74x64_S74x64_0_0 : ∀ a, (![0, 0] : Fin 2 → Nat) a + S74x64.size a ≤ S74x64.size a
  h_S74x64 : 0 < S74x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S4096x64 : S_.BroadcastsInDim S4096x64 (![] : Fin 0 → Fin S4096x64.rank)
  bcast_S100000_S100000x1_0 : S100000.BroadcastsInDim S100000x1 (![0] : Fin 1 → Fin S100000x1.rank)
  shapeCasts_S128_S1x128 : S128.ShapeCasts S1x128
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S5000x74_S74x64_S5000x64_1_0_0_1_n_n_wf : DotDims.WF S5000x74 S74x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  scatter_S4096x64_S100000x1_S100000x64_1_0_0_1_wf : ScatterDims.WF S4096x64 S100000x1 S100000x64 [1] [0] [0] 1
  dot_S4096x64_S64x128_S4096x128_1_0_0_1_n_n_wf : DotDims.WF S4096x64 S64x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x74.size a ≤ S100000x74.size a
  hwx0_0 : ∀ i : grid0.Coords, EltTy.bits .f32 = 32 ∨ (Rect.block (s := S100000x74) S5000x74.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S74x64.size a ≤ S74x64.size a
  hwx0_1 : ∀ i : grid0.Coords, EltTy.bits .f32 = 32 ∨ (Rect.block (s := S74x64) S74x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S74x64.size a ≤ S74x64.size a
  hwx0_2 : ∀ i : grid0.Coords, EltTy.bits .f32 = 32 ∨ (Rect.block (s := S74x64) S74x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S4096x64.size a
  hwx6_0 : ∀ i : grid6.Coords, EltTy.bits .f32 = 32 ∨ (Rect.block (s := S4096x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S4096x1.size a ≤ S4096x1.size a
  hwx6_5 : ∀ i : grid6.Coords, EltTy.bits .f32 = 32 ∨ (Rect.block (s := S4096x1) S4096x1.size (cc6_transform_5 i) (hinb6_5 i)).WholeWords (EltTy.packing .f32)

variable [Facts₀]

def dot_S5000x74_S74x64_S5000x64_1_0_0_1_n_n : DotDims S5000x74 S74x64 S5000x64 where
  lhsContracting := [1]
  rhsContracting := [0]
  lhsNonContracting := [0]
  rhsNonContracting := [1]
  lhsBatch := []
  rhsBatch := []
  wf := dot_S5000x74_S74x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_arg0) S5000x74.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S74x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S74x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v27) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v29_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v29_1) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v39) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29_1) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v41) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v44) S4096x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v45) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg18) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v46) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v47) S4096x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x74 : Shape := ⟨2, ![100000, 74]⟩
abbrev S3200000 : Shape := ⟨1, ![3200000]⟩
abbrev S100000 : Shape := ⟨1, ![100000]⟩
abbrev S74x64 : Shape := ⟨2, ![74, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S4096x64 : Shape := ⟨2, ![4096, 64]⟩
abbrev S100000x1 : Shape := ⟨2, ![100000, 1]⟩
abbrev S4096x128 : Shape := ⟨2, ![4096, 128]⟩
abbrev S1x128 : Shape := ⟨2, ![1, 128]⟩
abbrev S4096x1 : Shape := ⟨2, ![4096, 1]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x74, .f32⟩
  | .hbm, ⟨1, _⟩ => ⟨S3200000, .i32⟩
  | .hbm, ⟨2, _⟩ => ⟨S3200000, .i32⟩
  | .hbm, ⟨3, _⟩ => ⟨S100000, .i32⟩
  | .hbm, ⟨4, _⟩ => ⟨S74x64, .f32⟩
  | .hbm, ⟨5, _⟩ => ⟨S64, .f32⟩
  | .hbm, ⟨6, _⟩ => ⟨S74x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S100000x64, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x64, .f32⟩
  | .hbm, ⟨30, _⟩ => ⟨S_, .f32⟩
  | .hbm, ⟨31, _⟩ => ⟨S100000x64, .f32⟩
  | .hbm, ⟨32, _⟩ => ⟨S3200000x1, .i32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x64, .f32⟩
  | .hbm, ⟨58, _⟩ => ⟨S_, .f32⟩
  | .hbm, ⟨59, _⟩ => ⟨S100000x64, .f32⟩
  | .hbm, ⟨60, _⟩ => ⟨S3200000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S3200000x64, .f32⟩
  | .hbm, ⟨86, _⟩ => ⟨S_, .f32⟩
  | .hbm, ⟨87, _⟩ => ⟨S100000x64, .f32⟩
  | .hbm, ⟨88, _⟩ => ⟨S3200000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S4096x64, .f32⟩
  | .hbm, ⟨106, _⟩ => ⟨S100000x1, .i32⟩
  | .hbm, ⟨107, _⟩ => ⟨S4096x64, .f32⟩
  | .hbm, ⟨108, _⟩ => ⟨S4096x128, .f32⟩
  | .hbm, ⟨109, _⟩ => ⟨S1x128, .f32⟩
  | .hbm, ⟨110, _⟩ => ⟨S4096x128, .f32⟩
  | .hbm, ⟨111, _⟩ => ⟨S4096x128, .f32⟩
  | .hbm, ⟨112, _⟩ => ⟨S_, .f32⟩
  | .hbm, ⟨113, _⟩ => ⟨S4096x128, .f32⟩
  | .hbm, ⟨114, _⟩ => ⟨S4096x128, .f32⟩
  | .hbm, ⟨115, _⟩ => ⟨S4096x1, .f32⟩
  | .hbm, ⟨116, _⟩ => ⟨S1x1, .f32⟩
  | .hbm, ⟨117, _⟩ => ⟨S4096x1, .f32⟩
  | .hbm, ⟨118, _⟩ => ⟨S4096x1, .f32⟩
  | _, _ => ⟨S100000x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call0_cst : Ref sig .tc := ⟨.hbm, 37, rfl⟩
abbrev main_call0_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call1_cst : Ref sig .tc := ⟨.hbm, 44, rfl⟩
abbrev main_call1_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call2_cst : Ref sig .tc := ⟨.hbm, 65, rfl⟩
abbrev main_call2_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call3_cst : Ref sig .tc := ⟨.hbm, 72, rfl⟩
abbrev main_call3_v0 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_4 : Ref sig .tc := ⟨.hbm, 77, rfl⟩
abbrev main_v43 : Ref sig .tc := ⟨.hbm, 78, rfl⟩
abbrev main_v44 : Ref sig .tc := ⟨.hbm, 79, rfl⟩
abbrev main_c_5 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_6 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call4_cst : Ref sig .tc := ⟨.hbm, 93, rfl⟩
abbrev main_call4_v0 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_call5_cst : Ref sig .tc := ⟨.hbm, 100, rfl⟩
abbrev main_call5_v0 : Ref sig .tc := ⟨.hbm, 101, rfl⟩
abbrev main_v61 : Ref sig .tc := ⟨.hbm, 102, rfl⟩
abbrev main_v62 : Ref sig .tc := ⟨.hbm, 103, rfl⟩
abbrev main_cst_7 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call6_cst : Ref sig .tc := ⟨.hbm, 112, rfl⟩
abbrev main_call6_v0 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S4096x64 : S_.BroadcastsInDim S4096x64 (![] : Fin 0 → Fin S4096x64.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S100000x74_S74x64_S100000x64_1_0_0_1_n_n_wf : DotDims.WF S100000x74 S74x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S4096x64_S100000x1_S100000x64_1_0_0_1_wf : ScatterDims.WF S4096x64 S100000x1 S100000x64 [1] [0] [0] 1
  dot_S4096x64_S64x128_S4096x128_1_0_0_1_n_n_wf : DotDims.WF S4096x64 S64x128 S4096x128 [1] [0] [0] [1] [] []
  dot_S4096x128_S128x1_S4096x1_1_0_0_1_n_n_wf : DotDims.WF S4096x128 S128x1 S4096x1 [1] [0] [0] [1] [] []

variable [Facts₀]

def dot_S100000x74_S74x64_S100000x64_1_0_0_1_n_n : DotDims S100000x74 S74x64 S100000x64 where
  lhsContracting := [1]
  rhsContracting := [0]
  lhsNonContracting := [0]
  rhsNonContracting := [1]
  lhsBatch := []
  rhsBatch := []
  wf := dot_S100000x74_S74x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.KernelRun.lean ====
/-
  The idealized kernel's run with its result named.

  Every weakly fair execution of the seven-call program terminates without a fault, the twenty argument arrays end as
  launched, and the result buffer ends at the last segment boundary's contents: the fold of the host stretches and of
  each call's write-backs over the launch memory. This is the launch over the program's fourteen segments, the last
  thread state read against the final memory, with the result buffer kept beside the arguments.
-/
import proofs.«181861_j11785390260437_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments unchanged. -/
theorem run_named : θ_run defs (onTc (τ := τ) (main (F := F))) ⟨m, fun _ => 0, ρ⟩ (fun r => ∀ c : Dev nD,
      r.2.mem ((c.tc : Thread nD τ).loc main_v47) = W14 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v47 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c)⟩)

end Cert.KernelIdeal.Named

end
-- ==== Proof.Kept.lean ====
/-
  What each segment of the program leaves alone.

  The program is seven host stretches alternating with seven kernel calls. A host stretch changes only the buffers its
  operations write; a kernel call changes only its output arrays (an input array is read through its window and ends as
  it was found). So a buffer outside a stretch's written list, or other than a call's outputs, has the same contents on
  both sides of the segment. In particular none of the twenty argument buffers is ever written, so at every segment
  boundary each of them still holds its launch contents.
-/
import proofs.«181861_j11785390260437_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.SL.Sem
open Idealize.ShloMosaic.Pipeline (Dat)

/-! ## The two arguments, once -/

/-- A call's exit contents (its arrays at what the pipeline leaves, every other buffer as entered) agree with the entry
    contents at a reference whenever every window over that reference leaves its array as entered. -/
theorem withArrays_keeps {Val : EltTy → Type} {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ))) (r : Ref sig .tc)
    (hA : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw
    rw [Pipeline.withArrays_arr win hinj]
    exact hA w rfl
  · exact Pipeline.withArrays_of_ne win c V A r (fun w e => hw ⟨w, e⟩)

/-- Every operation of a literal host stretch writes inside a literal list of references: one membership per operation. -/
macro "writes_in_list" : tactic => `(tactic| (
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)))

variable {F : FTy → Type} [FloatOps F]
variable (m : (ℓ : Loc nD τ sig) → Buf (Elt F) ℓ) (ρ : Dev nD → PrngReg)

/-! ## The segments -/

/-- The twenty argument buffers. -/
abbrev argList : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The references host stretch 0 writes, and the output arrays of the call after it. -/
abbrev written0 : List (Ref sig .tc) := [main_v0]
abbrev outputs0 : List (Ref sig .tc) := [main_v1_0, main_v1_1]
theorem hostOps0_writes : (hostOps0 : List (HloOp τ sig (Elt F))).Forall fun op =>
    op.writes ⊆ (written0.map (Proc.devRef (τ := τ) .tc)).toFinset := by writes_in_list
theorem inputs0 : ∀ w : Fin cfg0.W, Pipeline.arrRef spec0 w ∉ outputs0 → (cfg0.win w).isOut = false := by decide
theorem host0_keeps (c : Dev nD) (r : Ref sig .tc) (h : r ∉ written0) :
    W1 m ρ c (Proc.devRef .tc r) = W0 m ρ c (Proc.devRef .tc r) :=
  StableHlo.after_of_writes_sub hostOps0 _ hostOps0_writes h
theorem call0_keeps (c : Dev nD) (r : Ref sig .tc) (h : r ∉ outputs0) :
    W2 m ρ c (Proc.devRef .tc r) = W1 m ρ c (Proc.devRef .tc r) :=
  withArrays_keeps spec0 launch0.win.arr_inj c _ _ r fun w e =>
    ((dat0 (V1 m ρ) c).arrAt_in w (inputs0 w (e ▸ h)) _).trans (A_eq0 (V1 m ρ) c w)

/-- The references host stretch 1 writes, and the output arrays of the call after it. -/
abbrev written1 : List (Ref sig .tc) := [main_c, main_v2, main_v3, main_c_0, main_v4, main_v5, main_v6, main_v7, main_v8, main_cst, main_v9, main_v10, main_v11, main_v12]
abbrev outputs1 : List (Ref sig .tc) := [main_v13]
theorem hostOps1_writes : (hostOps1 : List (HloOp τ sig (Elt F))).Forall fun op =>
    op.writes ⊆ (written1.map (Proc.devRef (τ := τ) .tc)).toFinset := by writes_in_list
theorem inputs1 : ∀ w : Fin cfg1.W, Pipeline.arrRef spec1 w ∉ outputs1 → (cfg1.win w).isOut = false := by decide
theorem host1_keeps (c : Dev nD) (r : Ref sig .tc) (h : r ∉ written1) :
    W3 m ρ c (Proc.devRef .tc r) = W2 m ρ c (Proc.devRef .tc r) :=
  StableHlo.after_of_writes_sub hostOps1 _ hostOps1_writes h
theorem call1_keeps (c : Dev nD) (r : Ref sig .tc) (h : r ∉ outputs1) :
    W4 m ρ c (Proc.devRef .tc r) = W3 m ρ c (Proc.devRef .tc r) :=
  withArrays_keeps spec1 launch1.win.arr_inj c _ _ r fun w e =>
    ((dat1 (V3 m ρ) c).arrAt_in w (inputs1 w (e ▸ h)) _).trans (A_eq1 (V3 m ρ) c w)

/-- The references host stretch 2 writes, and the output arrays of the call after it. -/
abbrev written2 : List (Ref sig .tc) := [main_v14]
abbrev outputs2 : List (Ref sig .tc) := [main_v15_0, main_v15_1]
theorem hostOps2_writes : (hostOps2 : List (HloOp τ sig (Elt F))).Forall fun op =>
    op.writes ⊆ (written2.map (Proc.devRef (τ := τ) .tc)).toFinset := by writes_in_list
theorem inputs2 : ∀ w : Fin cfg2.W, Pipeline.arrRef spec2 w ∉ outputs2 → (cfg2.win w).isOut = false := by decide
theorem host2_keeps (c : Dev nD) (r : Ref sig .tc) (h : r ∉ written2) :
    W5 m ρ c (Proc.devRef .tc r) = W4 m ρ c (Proc.devRef .tc r) :=
  StableHlo.after_of_writes_sub hostOps2 _ hostOps2_writes h
theorem call2_keeps (c : Dev nD) (r : Ref sig .tc) (h : r ∉ outputs2) :
    W6 m ρ c (Proc.devRef .tc r) = W5 m ρ c (Proc.devRef .tc r) :=
  withArrays_keeps spec2 launch2.win.arr_inj c _ _ r fun w e =>
    ((dat2 (V5 m ρ) c).arrAt_in w (inputs2 w (e ▸ h)) _).trans (A_eq2 (V5 m ρ) c w)

/-- The references host stretch 3 writes, and the output arrays of the call after it. -/
abbrev written3 : List (Ref sig .tc) := [main_c_1, main_v16, main_v17, main_c_2, main_v18, main_v19, main_v20, main_v21, main_v22, main_cst_3, main_v23, main_v24, main_v25, main_v26]
abbrev outputs3 : List (Ref sig .tc) := [main_v27]
theorem hostOps3_writes : (hostOps3 : List (HloOp τ sig (Elt F))).Forall fun op =>
    op.writes ⊆ (written3.map (Proc.devRef (τ := τ) .tc)).toFinset := by writes_in_list
theorem inputs3 : ∀ w : Fin cfg3.W, Pipeline.arrRef spec3 w ∉ outputs3 → (cfg3.win w).isOut = false := by decide
theorem host3_keeps (c : Dev nD) (r : Ref sig .tc) (h : r ∉ written3) :
    W7 m ρ c (Proc.devRef .tc r) = W6 m ρ c (Proc.devRef .tc r) :=
  StableHlo.after_of_writes_sub hostOps3 _ hostOps3_writes h
theorem call3_keeps (c : Dev nD) (r : Ref sig .tc) (h : r ∉ outputs3) :
    W8 m ρ c (Proc.devRef .tc r) = W7 m ρ c (Proc.devRef .tc r) :=
  withArrays_keeps spec3 launch3.win.arr_inj c _ _ r fun w e =>
    ((dat3 (V7 m ρ) c).arrAt_in w (inputs3 w (e ▸ h)) _).trans (A_eq3 (V7 m ρ) c w)

/-- The references host stretch 4 writes, and the output arrays of the call after it. -/
abbrev written4 : List (Ref sig .tc) := [main_v28]
abbrev outputs4 : List (Ref sig .tc) := [main_v29_0, main_v29_1]
theorem hostOps4_writes : (hostOps4 : List (HloOp τ sig (Elt F))).Forall fun op =>
    op.writes ⊆ (written4.map (Proc.devRef (τ := τ) .tc)).toFinset := by writes_in_list
theorem inputs4 : ∀ w : Fin cfg4.W, Pipeline.arrRef spec4 w ∉ outputs4 → (cfg4.win w).isOut = false := by decide
theorem host4_keeps (c : Dev nD) (r : Ref sig .tc) (h : r ∉ written4) :
    W9 m ρ c (Proc.devRef .tc r) = W8 m ρ c (Proc.devRef .tc r) :=
  StableHlo.after_of_writes_sub hostOps4 _ hostOps4_writes h
theorem call4_keeps (c : Dev nD) (r : Ref sig .tc) (h : r ∉ outputs4) :
    W10 m ρ c (Proc.devRef .tc r) = W9 m ρ c (Proc.devRef .tc r) :=
  withArrays_keeps spec4 launch4.win.arr_inj c _ _ r fun w e =>
    ((dat4 (V9 m ρ) c).arrAt_in w (inputs4 w (e ▸ h)) _).trans (A_eq4 (V9 m ρ) c w)

/-- The references host stretch 5 writes, and the output arrays of the call after it. -/
abbrev written5 : List (Ref sig .tc) := [main_c_4, main_v30, main_v31, main_c_5, main_v32, main_v33, main_v34, main_v35, main_v36, main_cst_6, main_v37, main_v38, main_v39, main_v40]
abbrev outputs5 : List (Ref sig .tc) := [main_v41]
theorem hostOps5_writes : (hostOps5 : List (HloOp τ sig (Elt F))).Forall fun op =>
    op.writes ⊆ (written5.map (Proc.devRef (τ := τ) .tc)).toFinset := by writes_in_list
theorem inputs5 : ∀ w : Fin cfg5.W, Pipeline.arrRef spec5 w ∉ outputs5 → (cfg5.win w).isOut = false := by decide
theorem host5_keeps (c : Dev nD) (r : Ref sig .tc) (h : r ∉ written5) :
    W11 m ρ c (Proc.devRef .tc r) = W10 m ρ c (Proc.devRef .tc r) :=
  StableHlo.after_of_writes_sub hostOps5 _ hostOps5_writes h
theorem call5_keeps (c : Dev nD) (r : Ref sig .tc) (h : r ∉ outputs5) :
    W12 m ρ c (Proc.devRef .tc r) = W11 m ρ c (Proc.devRef .tc r) :=
  withArrays_keeps spec5 launch5.win.arr_inj c _ _ r fun w e =>
    ((dat5 (V11 m ρ) c).arrAt_in w (inputs5 w (e ▸ h)) _).trans (A_eq5 (V11 m ρ) c w)

/-- The references host stretch 6 writes, and the output arrays of the call after it. -/
abbrev written6 : List (Ref sig .tc) := [main_cst_7, main_v42, main_v43, main_v44, main_v45, main_v46]
abbrev outputs6 : List (Ref sig .tc) := [main_v47]
theorem hostOps6_writes : (hostOps6 : List (HloOp τ sig (Elt F))).Forall fun op =>
    op.writes ⊆ (written6.map (Proc.devRef (τ := τ) .tc)).toFinset := by writes_in_list
theorem inputs6 : ∀ w : Fin cfg6.W, Pipeline.arrRef spec6 w ∉ outputs6 → (cfg6.win w).isOut = false := by decide
theorem host6_keeps (c : Dev nD) (r : Ref sig .tc) (h : r ∉ written6) :
    W13 m ρ c (Proc.devRef .tc r) = W12 m ρ c (Proc.devRef .tc r) :=
  StableHlo.after_of_writes_sub hostOps6 _ hostOps6_writes h
theorem call6_keeps (c : Dev nD) (r : Ref sig .tc) (h : r ∉ outputs6) :
    W14 m ρ c (Proc.devRef .tc r) = W13 m ρ c (Proc.devRef .tc r) :=
  withArrays_keeps spec6 launch6.win.arr_inj c _ _ r fun w e =>
    ((dat6 (V13 m ρ) c).arrAt_in w (inputs6 w (e ▸ h)) _).trans (A_eq6 (V13 m ρ) c w)

/-! ## The argument buffers at every boundary -/

theorem args_unwritten : ∀ r ∈ argList, r ∉ written0 ∧ r ∉ outputs0 ∧ r ∉ written1 ∧ r ∉ outputs1 ∧ r ∉ written2 ∧ r ∉ outputs2
    ∧ r ∉ written3 ∧ r ∉ outputs3 ∧ r ∉ written4 ∧ r ∉ outputs4 ∧ r ∉ written5 ∧ r ∉ outputs5 ∧ r ∉ written6 ∧ r ∉ outputs6 := by
  decide

theorem arg_at0 (c : Dev nD) (r : Ref sig .tc) : W0 m ρ c (Proc.devRef .tc r) = m ((c : Thread nD τ).loc r) := rfl
theorem arg_at1 (c : Dev nD) (r : Ref sig .tc) (h : r ∈ argList) :
    W1 m ρ c (Proc.devRef .tc r) = m ((c : Thread nD τ).loc r) :=
  (host0_keeps m ρ c r (args_unwritten r h).1).trans (arg_at0 m ρ c r)
theorem arg_at2 (c : Dev nD) (r : Ref sig .tc) (h : r ∈ argList) :
    W2 m ρ c (Proc.devRef .tc r) = m ((c : Thread nD τ).loc r) :=
  (call0_keeps m ρ c r (args_unwritten r h).2.1).trans (arg_at1 m ρ c r h)
theorem arg_at3 (c : Dev nD) (r : Ref sig .tc) (h : r ∈ argList) :
    W3 m ρ c (Proc.devRef .tc r) = m ((c : Thread nD τ).loc r) :=
  (host1_keeps m ρ c r (args_unwritten r h).2.2.1).trans (arg_at2 m ρ c r h)
theorem arg_at4 (c : Dev nD) (r : Ref sig .tc) (h : r ∈ argList) :
    W4 m ρ c (Proc.devRef .tc r) = m ((c : Thread nD τ).loc r) :=
  (call1_keeps m ρ c r (args_unwritten r h).2.2.2.1).trans (arg_at3 m ρ c r h)
theorem arg_at5 (c : Dev nD) (r : Ref sig .tc) (h : r ∈ argList) :
    W5 m ρ c (Proc.devRef .tc r) = m ((c : Thread nD τ).loc r) :=
  (host2_keeps m ρ c r (args_unwritten r h).2.2.2.2.1).trans (arg_at4 m ρ c r h)
theorem arg_at6 (c : Dev nD) (r : Ref sig .tc) (h : r ∈ argList) :
    W6 m ρ c (Proc.devRef .tc r) = m ((c : Thread nD τ).loc r) :=
  (call2_keeps m ρ c r (args_unwritten r h).2.2.2.2.2.1).trans (arg_at5 m ρ c r h)
theorem arg_at7 (c : Dev nD) (r : Ref sig .tc) (h : r ∈ argList) :
    W7 m ρ c (Proc.devRef .tc r) = m ((c : Thread nD τ).loc r) :=
  (host3_keeps m ρ c r (args_unwritten r h).2.2.2.2.2.2.1).trans (arg_at6 m ρ c r h)
theorem arg_at8 (c : Dev nD) (r : Ref sig .tc) (h : r ∈ argList) :
    W8 m ρ c (Proc.devRef .tc r) = m ((c : Thread nD τ).loc r) :=
  (call3_keeps m ρ c r (args_unwritten r h).2.2.2.2.2.2.2.1).trans (arg_at7 m ρ c r h)
theorem arg_at9 (c : Dev nD) (r : Ref sig .tc) (h : r ∈ argList) :
    W9 m ρ c (Proc.devRef .tc r) = m ((c : Thread nD τ).loc r) :=
  (host4_keeps m ρ c r (args_unwritten r h).2.2.2.2.2.2.2.2.1).trans (arg_at8 m ρ c r h)
theorem arg_at10 (c : Dev nD) (r : Ref sig .tc) (h : r ∈ argList) :
    W10 m ρ c (Proc.devRef .tc r) = m ((c : Thread nD τ).loc r) :=
  (call4_keeps m ρ c r (args_unwritten r h).2.2.2.2.2.2.2.2.2.1).trans (arg_at9 m ρ c r h)
theorem arg_at11 (c : Dev nD) (r : Ref sig .tc) (h : r ∈ argList) :
    W11 m ρ c (Proc.devRef .tc r) = m ((c : Thread nD τ).loc r) :=
  (host5_keeps m ρ c r (args_unwritten r h).2.2.2.2.2.2.2.2.2.2.1).trans (arg_at10 m ρ c r h)
theorem arg_at12 (c : Dev nD) (r : Ref sig .tc) (h : r ∈ argList) :
    W12 m ρ c (Proc.devRef .tc r) = m ((c : Thread nD τ).loc r) :=
  (call5_keeps m ρ c r (args_unwritten r h).2.2.2.2.2.2.2.2.2.2.2.1).trans (arg_at11 m ρ c r h)
theorem arg_at13 (c : Dev nD) (r : Ref sig .tc) (h : r ∈ argList) :
    W13 m ρ c (Proc.devRef .tc r) = m ((c : Thread nD τ).loc r) :=
  (host6_keeps m ρ c r (args_unwritten r h).2.2.2.2.2.2.2.2.2.2.2.2.1).trans (arg_at12 m ρ c r h)
theorem arg_at14 (c : Dev nD) (r : Ref sig .tc) (h : r ∈ argList) :
    W14 m ρ c (Proc.devRef .tc r) = m ((c : Thread nD τ).loc r) :=
  (call6_keeps m ρ c r (args_unwritten r h).2.2.2.2.2.2.2.2.2.2.2.2.2).trans (arg_at13 m ρ c r h)

end Cert.KernelIdeal.Named

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibDotFree.lean ====
/-
  The free axes of a rank-2 by rank-2 product.

  For dimension numbers with no batch axis whose left operand keeps axis 0 and whose right operand keeps axis 1, the
  left operand is read at the output's row and the right operand at the output's column, whatever the contraction
  position. These are the two side facts a product read entry by entry needs; they hold for every extent, so they are
  proved once here from the lists of the record instead of once per record.
-/
import Idealize.ShloMosaic.PureOps.Ideal.Laws
import Idealize.ShloMosaic.Lib.ValueIdx

namespace Idealize.ShloMosaic.DotFree

open Idealize.ShloMosaic

variable {M K N : Nat}

/-- The left operand's row is the output's row. -/
theorem lhs_row (d : DotDims (⟨2, ![M, K]⟩ : Shape) (⟨2, ![K, N]⟩ : Shape) (⟨2, ![M, N]⟩ : Shape))
    (hb : d.lhsBatch = []) (hn : d.lhsNonContracting = [0])
    (i : (⟨2, ![M, N]⟩ : Shape).Idx) (q : d.contr.Idx) : (d.lhsIdx i q 0).val = (i 0).val := by
  have hmem : (0 : Fin 2) ∈ d.lhsNonContracting := by rw [hn]; exact List.mem_singleton.mpr rfl
  have hnb : ¬ (0 : Fin 2) ∈ d.lhsBatch := by rw [hb]; exact List.not_mem_nil
  unfold DotDims.lhsIdx
  rw [dif_neg hnb, dif_pos hmem]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hb, hn])

/-- The right operand's column is the output's column. -/
theorem rhs_col (d : DotDims (⟨2, ![M, K]⟩ : Shape) (⟨2, ![K, N]⟩ : Shape) (⟨2, ![M, N]⟩ : Shape))
    (hb : d.lhsBatch = []) (hb' : d.rhsBatch = []) (hn : d.lhsNonContracting = [0]) (hn' : d.rhsNonContracting = [1])
    (i : (⟨2, ![M, N]⟩ : Shape).Idx) (q : d.contr.Idx) : (d.rhsIdx i q 1).val = (i 1).val := by
  have hmem : (1 : Fin 2) ∈ d.rhsNonContracting := by rw [hn']; exact List.mem_singleton.mpr rfl
  have hnb : ¬ (1 : Fin 2) ∈ d.rhsBatch := by rw [hb']; exact List.not_mem_nil
  unfold DotDims.rhsIdx
  rw [dif_neg hnb, dif_pos hmem]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hb, hn, hn'])

end Idealize.ShloMosaic.DotFree
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.LibDense.lean ====
/-
  A dense layer entry by entry, at the ideal instance.

  Three functions on extended-real arrays: the product of an a by k and a k by b array (entry (r, c) is the sum over t of
  x(r, t) * w(t, c)), a bias row added to every row followed by the positive part, and a bias row added to every row.
  Both spellings of each are shown to be these functions: the host's (dot_general; a bias vector broadcast to a row and
  the row down the rows; a maximum with a broadcast zero) and a kernel's (a matrix product of operands narrowed to a
  shorter float format into a zero accumulator, a format change being the identity here; a row broadcast over the block;
  a maximum with a splat zero). The host's bias is a vector and the kernel's a 1 by b row: the row form is the vector
  reshaped.
-/
import Idealize.ShloMosaic.PureOps.Ideal.Laws
import Idealize.ShloMosaic.Lib.ValueIdx
import Idealize.ShloMosaic.Lib.ValueLayout
import Idealize.ShloMosaic.Lib.Pipeline.Value
import proofs.«181861_j11785390260437_1_alg».proof.Proof.LibMatmulRows
import proofs.«181861_j11785390260437_1_alg».proof.Proof.LibDotFree
import proofs.«181861_j11785390260437_1_alg».proof.Proof.LibHostBroadcast
import proofs.«181861_j11785390260437_1_alg».proof.Proof.LibVectorAsMatrix

noncomputable section

namespace Idealize.ShloMosaic.DenseLayer

open Idealize.ShloMosaic Idealize.ShloMosaic.ValueIdx

variable {a b k : ℕ}

/-- The product: entry (r, c) is the sum over t of x(r, t) * w(t, c). -/
def prod (x : FVec Ideal (⟨2, ![a, k]⟩ : Shape) .f32) (w : FVec Ideal (⟨2, ![k, b]⟩ : Shape) .f32) :
    FVec Ideal (⟨2, ![a, b]⟩ : Shape) .f32 :=
  fun i => ∑ t : Fin k, x (ix2 (i 0) t) * w (ix2 t (i 1))

/-- A bias row added to every row, then the positive part. -/
def biasRelu (y : FVec Ideal (⟨2, ![a, b]⟩ : Shape) .f32) (row : FVec Ideal (⟨2, ![1, b]⟩ : Shape) .f32) :
    FVec Ideal (⟨2, ![a, b]⟩ : Shape) .f32 :=
  fun i => max (y i + row (ix2 (0 : Fin 1) (i 1))) (Ideal.ofBits .f32 0x00000000#32)

/-- A bias row added to every row. -/
def biasAdd (y : FVec Ideal (⟨2, ![a, b]⟩ : Shape) .f32) (row : FVec Ideal (⟨2, ![1, b]⟩ : Shape) .f32) :
    FVec Ideal (⟨2, ![a, b]⟩ : Shape) .f32 :=
  fun i => y i + row (ix2 (0 : Fin 1) (i 1))

/-- A bias row added to every row, the positive part, then a second array added entry by entry (a residual branch). -/
def biasReluAdd (y : FVec Ideal (⟨2, ![a, b]⟩ : Shape) .f32) (row : FVec Ideal (⟨2, ![1, b]⟩ : Shape) .f32)
    (res : FVec Ideal (⟨2, ![a, b]⟩ : Shape) .f32) : FVec Ideal (⟨2, ![a, b]⟩ : Shape) .f32 :=
  fun i => max (y i + row (ix2 (0 : Fin 1) (i 1))) (Ideal.ofBits .f32 0x00000000#32) + res i

/-- It is the sum of the clamped biased array and the residual. -/
theorem biasReluAdd_eq (y : FVec Ideal (⟨2, ![a, b]⟩ : Shape) .f32) (row : FVec Ideal (⟨2, ![1, b]⟩ : Shape) .f32)
    (res : FVec Ideal (⟨2, ![a, b]⟩ : Shape) .f32) : biasReluAdd y row res = addf (biasRelu y row) res := rfl

/-! ## The host's spellings -/

/-- The host's dot_general is the product. -/
theorem host_dot (d : DotDims (⟨2, ![a, k]⟩ : Shape) (⟨2, ![k, b]⟩ : Shape) (⟨2, ![a, b]⟩ : Shape))
    (prec : Option ContractPrecision)
    (hcl : d.lhsContracting = [1]) (hcr : d.rhsContracting = [0]) (hn : d.lhsNonContracting = [0])
    (hn' : d.rhsNonContracting = [1]) (hb : d.lhsBatch = []) (hb' : d.rhsBatch = [])
    (hrk : d.contr.rank = 1) (hs : d.contr.size ⟨0, by omega⟩ = k)
    (x : FVec Ideal (⟨2, ![a, k]⟩ : Shape) .f32) (w : FVec Ideal (⟨2, ![k, b]⟩ : Shape) .f32) :
    Host.dotGeneral (F := Ideal) d prec x w = prod x w := by
  funext i
  simp only [Host.dotGeneral]
  exact MatmulRows.dotGeneral_apply d prec _ hcl hcr hrk hs (DotFree.lhs_row d hb hn) (DotFree.rhs_col d hb hb' hn hn') x w i

/-- The host's bias then relu: the bias vector as a row, the row down the rows, a maximum with a broadcast zero. -/
theorem host_biasRelu (h0 : (⟨0, ![]⟩ : Shape).BroadcastsInDim (⟨2, ![a, b]⟩ : Shape) ![])
    (h1 : (⟨1, ![b]⟩ : Shape).BroadcastsInDim (⟨2, ![1, b]⟩ : Shape) ![1])
    (h2 : (⟨2, ![1, b]⟩ : Shape).BroadcastsInDim (⟨2, ![a, b]⟩ : Shape) ![0, 1])
    (hc : (⟨1, ![b]⟩ : Shape).ShapeCasts (⟨2, ![1, b]⟩ : Shape))
    (y : FVec Ideal (⟨2, ![a, b]⟩ : Shape) .f32) (v : FVec Ideal (⟨1, ![b]⟩ : Shape) .f32) :
    maximumf (addf y (broadcastInDim (⟨2, ![a, b]⟩ : Shape) ![0, 1] h2 (broadcastInDim (⟨2, ![1, b]⟩ : Shape) ![1] h1 v)))
        (broadcastInDim (⟨2, ![a, b]⟩ : Shape) ![] h0 (constant (F := Ideal) (⟨0, ![]⟩ : Shape) .f32 0x00000000#32))
      = biasRelu y (shapeCast (⟨2, ![1, b]⟩ : Shape) v hc) := by
  funext i
  show max (y i + broadcastInDim (⟨2, ![a, b]⟩ : Shape) ![0, 1] h2 (broadcastInDim (⟨2, ![1, b]⟩ : Shape) ![1] h1 v) i)
      (broadcastInDim (⟨2, ![a, b]⟩ : Shape) ![] h0 (constant (F := Ideal) (⟨0, ![]⟩ : Shape) .f32 0x00000000#32) i)
    = max (y i + shapeCast (⟨2, ![1, b]⟩ : Shape) v hc (ix2 (0 : Fin 1) (i 1))) (Ideal.ofBits .f32 0x00000000#32)
  rw [HostBroadcast.bias_apply h1 h2 v i, HostBroadcast.scalar_apply _ h0 _ i, VectorAsMatrix.row_apply v hc 0 (i 1)]
  rfl

/-- The host's bias alone. -/
theorem host_biasAdd
    (h1 : (⟨1, ![b]⟩ : Shape).BroadcastsInDim (⟨2, ![1, b]⟩ : Shape) ![1])
    (h2 : (⟨2, ![1, b]⟩ : Shape).BroadcastsInDim (⟨2, ![a, b]⟩ : Shape) ![0, 1])
    (hc : (⟨1, ![b]⟩ : Shape).ShapeCasts (⟨2, ![1, b]⟩ : Shape))
    (y : FVec Ideal (⟨2, ![a, b]⟩ : Shape) .f32) (v : FVec Ideal (⟨1, ![b]⟩ : Shape) .f32) :
    addf y (broadcastInDim (⟨2, ![a, b]⟩ : Shape) ![0, 1] h2 (broadcastInDim (⟨2, ![1, b]⟩ : Shape) ![1] h1 v))
      = biasAdd y (shapeCast (⟨2, ![1, b]⟩ : Shape) v hc) := by
  funext i
  show y i + broadcastInDim (⟨2, ![a, b]⟩ : Shape) ![0, 1] h2 (broadcastInDim (⟨2, ![1, b]⟩ : Shape) ![1] h1 v) i
    = y i + shapeCast (⟨2, ![1, b]⟩ : Shape) v hc (ix2 (0 : Fin 1) (i 1))
  rw [HostBroadcast.bias_apply h1 h2 v i, VectorAsMatrix.row_apply v hc 0 (i 1)]

/-! ## A kernel's spellings -/

/-- A kernel's matrix product of narrowed operands into the zero accumulator is the product. -/
theorem kernel_matmul (d : DotDims (⟨2, ![a, k]⟩ : Shape) (⟨2, ![k, b]⟩ : Shape) (⟨2, ![a, b]⟩ : Shape))
    (prec : Option ContractPrecision)
    (hcl : d.lhsContracting = [1]) (hcr : d.rhsContracting = [0]) (hn : d.lhsNonContracting = [0])
    (hn' : d.rhsNonContracting = [1]) (hb : d.lhsBatch = []) (hb' : d.rhsBatch = [])
    (hrk : d.contr.rank = 1) (hs : d.contr.size ⟨0, by omega⟩ = k)
    {ψ ψ' : FTy} (hψ : ψ.bits < FTy.f32.bits) (hψ' : ψ'.bits < FTy.f32.bits)
    (x : FVec Ideal (⟨2, ![a, k]⟩ : Shape) .f32) (w : FVec Ideal (⟨2, ![k, b]⟩ : Shape) .f32) :
    matmul d prec (truncf ψ x hψ : FVec Ideal (⟨2, ![a, k]⟩ : Shape) ψ) (truncf ψ' w hψ' : FVec Ideal (⟨2, ![k, b]⟩ : Shape) ψ')
        (constant (F := Ideal) (⟨2, ![a, b]⟩ : Shape) .f32 0x00000000#32)
      = prod x w := by
  funext i
  exact MatmulRows.matmul_zero_apply d prec hcl hcr hrk hs (DotFree.lhs_row d hb hn) (DotFree.rhs_col d hb hb' hn hn') _ _ i

/-- A kernel's bias then relu: the row broadcast over the block, a maximum with a splat zero. -/
theorem kernel_biasRelu (h : (⟨2, ![1, b]⟩ : Shape).Broadcasts (⟨2, ![a, b]⟩ : Shape))
    (y : FVec Ideal (⟨2, ![a, b]⟩ : Shape) .f32) (row : FVec Ideal (⟨2, ![1, b]⟩ : Shape) .f32) :
    maximumf (addf y (broadcastTo (⟨2, ![a, b]⟩ : Shape) row h))
        (broadcast (⟨2, ![a, b]⟩ : Shape) (Scalar.ofBits (F := Ideal) .f32 0x00000000#32))
      = biasRelu y row := by
  funext i
  obtain ⟨p, q, rfl⟩ : ∃ (p : Fin a) (q : Fin b), i = ix2 p q := ⟨i 0, i 1, eq_ix2 i⟩
  show max (y (ix2 p q) + broadcastTo (⟨2, ![a, b]⟩ : Shape) row h (ix2 p q)) _ = max (y (ix2 p q) + row (ix2 (0 : Fin 1) q)) _
  rw [broadcastTo_1b_ab_apply row h p q]
  rfl

/-- A kernel's bias, relu and residual. -/
theorem kernel_biasReluAdd (h : (⟨2, ![1, b]⟩ : Shape).Broadcasts (⟨2, ![a, b]⟩ : Shape))
    (y : FVec Ideal (⟨2, ![a, b]⟩ : Shape) .f32) (row : FVec Ideal (⟨2, ![1, b]⟩ : Shape) .f32)
    (res : FVec Ideal (⟨2, ![a, b]⟩ : Shape) .f32) :
    addf (maximumf (addf y (broadcastTo (⟨2, ![a, b]⟩ : Shape) row h))
        (broadcast (⟨2, ![a, b]⟩ : Shape) (Scalar.ofBits (F := Ideal) .f32 0x00000000#32))) res
      = biasReluAdd y row res :=
  congrArg (fun z => addf z res) (kernel_biasRelu h y row)

/-- A kernel's bias alone. -/
theorem kernel_biasAdd (h : (⟨2, ![1, b]⟩ : Shape).Broadcasts (⟨2, ![a, b]⟩ : Shape))
    (y : FVec Ideal (⟨2, ![a, b]⟩ : Shape) .f32) (row : FVec Ideal (⟨2, ![1, b]⟩ : Shape) .f32) :
    addf y (broadcastTo (⟨2, ![a, b]⟩ : Shape) row h) = biasAdd y row := by
  funext i
  obtain ⟨p, q, rfl⟩ : ∃ (p : Fin a) (q : Fin b), i = ix2 p q := ⟨i 0, i 1, eq_ix2 i⟩
  show y (ix2 p q) + broadcastTo (⟨2, ![a, b]⟩ : Shape) row h (ix2 p q) = y (ix2 p q) + row (ix2 (0 : Fin 1) q)
  rw [broadcastTo_1b_ab_apply row h p q]

end Idealize.ShloMosaic.DenseLayer

end
-- ==== Proof.Region0.lean ====
/-
  The first layer's projection call, as whole arrays.

  The call runs over 20 blocks of 5000 node rows. At block t it reads rows 5000t .. 5000t+4999 of the node features and
  the whole of the two weight matrices and of the bias row, and writes the same rows of two outputs: the features times
  the first weight matrix, and the positive part of the features times the second weight matrix plus the bias row. An
  output entry depends only on its own feature row, so every block is the restriction of one whole-array function, and
  the 20 blocks tile the 100000 rows: each output array ends as that function of the arrays the call found.
-/
import proofs.«181861_j11785390260437_1_alg».proof.Proof.Gen.KernelIdeal.Frame
import proofs.«181861_j11785390260437_1_alg».proof.Proof.LibDense

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_0 : (![0, 0] : Fin 2 → Nat) = fun _ => 0 := funext fun a => by fin_cases a <;> rfl

/-- The body's first store: the block of features times the weight matrix. -/
theorem proj0_pay (x0 : FVec Ideal S5000x74 .f32) (w : FVec Ideal S74x64 .f32) :
    k0_pay2 (F := Ideal) x0 w = DenseLayer.prod (a := 5000) (k := 74) (b := 64) x0 w := by
  unfold k0_pay2 k0_pay1
  exact DenseLayer.kernel_matmul dot_S5000x74_S74x64_S5000x64_1_0_0_1_n_n none rfl rfl rfl rfl rfl rfl rfl rfl
    bitsLt_bf16_f32 bitsLt_bf16_f32 x0 w

/-- The body's second store: the positive part of the block times the second weight matrix plus the bias row. -/
theorem res0_pay (x0 : FVec Ideal S5000x74 .f32) (r : FVec Ideal S74x64 .f32) (row : FVec Ideal S1x64 .f32) :
    k0_pay3 (F := Ideal) x0 r row = DenseLayer.biasRelu (DenseLayer.prod (a := 5000) (k := 74) (b := 64) x0 r) row := by
  unfold k0_pay3 k0_pay1
  simp only [shapeCast_self]
  exact (DenseLayer.kernel_biasRelu (a := 5000) (b := 64) broadcasts_S1x64_S5000x64 _ row).trans
    (congrArg (fun y => DenseLayer.biasRelu y row)
      (DenseLayer.kernel_matmul dot_S5000x74_S74x64_S5000x64_1_0_0_1_n_n none rfl rfl rfl rfl rfl rfl rfl rfl
        bitsLt_bf16_f32 bitsLt_bf16_f32 x0 r))

/-- The block index maps over the 20 points: the row blocks move with the point, everything else stays at block 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point t writes back to the first output is block t of the product of the arrays the call found. -/
theorem flushed0_4 (c : Dev nD) (t : Fin cfg0.N) :
    (dat0 V c).flushed 4 t
      = ((cfg0.win 4).blk t).view.read (Elt Ideal)
          (DenseLayer.prod (a := 100000) (k := 74) (b := 64) (V c main_arg0) (V c main_arg4)) := by
  show (cfg0.win 4).cut (grid0.coords t) ((dat0 V c).after 4 t) = _
  rw [after0_4]
  unfold out0_4
  rw [View.canon_unit_zero zero2_0]
  simp only [View.ld_unit_zero (S := S5000x74) zero2_0, View.ld_unit_zero (S := S74x64) zero2_0]
  obtain ⟨e0, e1, e2, e3, e4, e5, e6, e7, e8, e9, e10, e11⟩ := idx0 t
  funext j
  obtain ⟨p, q, rfl⟩ : ∃ (p : Fin 5000) (q : Fin 64), j = ix2 p q := ⟨j 0, j 1, eq_ix2 j⟩
  show k0_pay2 (F := Ideal) (iblk0 V c 0 t) (iblk0 V c 1 t) (ix2 p q)
      = DenseLayer.prod (a := 100000) (k := 74) (b := 64) (V c main_arg0) (V c main_arg4) (((cfg0.win 4).blk t).view.emb (ix2 p q))
  rw [proj0_pay]
  unfold DenseLayer.prod
  refine Finset.sum_congr rfl fun s _ => ?_
  have h0 : ((cfg0.win 0).blk t).view.emb (ix2 p s) = ix2 ((((cfg0.win 4).blk t).view.emb (ix2 p q)) 0) s := by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 74 + 1 * s.val = s.val; omega
  have h1 : ((cfg0.win 1).blk t).view.emb (ix2 s q) = ix2 s ((((cfg0.win 4).blk t).view.emb (ix2 p q)) 1) := by
    funext a; apply Fin.ext
    match a with
    | ⟨0, _⟩ => show win0_1.index t (0 : Fin 2) * 74 + 1 * s.val = s.val; omega
    | ⟨1, _⟩ => show win0_1.index t (1 : Fin 2) * 64 + 1 * q.val = win0_4.index t (1 : Fin 2) * 64 + 1 * q.val; omega
  refine congrArg₂ (· * ·) ?_ ?_
  · exact congrArg (V c main_arg0) h0
  · exact congrArg (V c main_arg4) h1

/-- What point t writes back to the second output is block t of the biased, clamped product. -/
theorem flushed0_5 (c : Dev nD) (t : Fin cfg0.N) :
    (dat0 V c).flushed 5 t
      = ((cfg0.win 5).blk t).view.read (Elt Ideal)
          (DenseLayer.biasRelu (DenseLayer.prod (a := 100000) (k := 74) (b := 64) (V c main_arg0) (V c main_arg6)) (V c main_v0)) := by
  show (cfg0.win 5).cut (grid0.coords t) ((dat0 V c).after 5 t) = _
  rw [after0_5]
  unfold out0_5
  rw [View.canon_unit_zero zero2_0]
  simp only [View.ld_unit_zero (S := S5000x74) zero2_0, View.ld_unit_zero (S := S74x64) zero2_0,
    View.ld_unit_zero (S := S1x64) zero2_0]
  obtain ⟨e0, e1, e2, e3, e4, e5, e6, e7, e8, e9, e10, e11⟩ := idx0 t
  funext j
  obtain ⟨p, q, rfl⟩ : ∃ (p : Fin 5000) (q : Fin 64), j = ix2 p q := ⟨j 0, j 1, eq_ix2 j⟩
  show k0_pay3 (F := Ideal) (iblk0 V c 0 t) (iblk0 V c 2 t) (iblk0 V c 3 t) (ix2 p q)
      = DenseLayer.biasRelu (DenseLayer.prod (a := 100000) (k := 74) (b := 64) (V c main_arg0) (V c main_arg6)) (V c main_v0)
          (((cfg0.win 5).blk t).view.emb (ix2 p q))
  rw [res0_pay]
  unfold DenseLayer.biasRelu DenseLayer.prod
  have h3 : ((cfg0.win 3).blk t).view.emb (ix2 (0 : Fin 1) q)
      = ix2 (0 : Fin 1) ((((cfg0.win 5).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 64 + 1 * q.val = win0_5.index t (1 : Fin 2) * 64 + 1 * q.val; omega
  refine congrArg₂ max (congrArg₂ (· + ·) (Finset.sum_congr rfl fun s _ => ?_) (congrArg (V c main_v0) h3)) rfl
  have h0 : ((cfg0.win 0).blk t).view.emb (ix2 p s) = ix2 ((((cfg0.win 5).blk t).view.emb (ix2 p q)) 0) s := by
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 74 + 1 * s.val = s.val; omega
  have h2 : ((cfg0.win 2).blk t).view.emb (ix2 s q) = ix2 s ((((cfg0.win 5).blk t).view.emb (ix2 p q)) 1) := by
    funext a; apply Fin.ext
    match a with
    | ⟨0, _⟩ => show win0_2.index t (0 : Fin 2) * 74 + 1 * s.val = s.val; omega
    | ⟨1, _⟩ => show win0_2.index t (1 : Fin 2) * 64 + 1 * q.val = win0_5.index t (1 : Fin 2) * 64 + 1 * q.val; omega
  refine congrArg₂ (· * ·) ?_ ?_
  · exact congrArg (V c main_arg0) h0
  · exact congrArg (V c main_arg6) h2

/-- An index is in point t's block of the first output iff its row is among the block's 5000 rows. -/
theorem mem_blk0_4 (t : Fin cfg0.N) (i : S100000x64.Idx) :
    i ∈ ((cfg0.win 4).blk t).view.set
      ↔ ∀ a : Fin 2, win0_4.index t a * S5000x64.size a ≤ (i a).val ∧ (i a).val < win0_4.index t a * S5000x64.size a + S5000x64.size a := by
  show i ∈ ((View.whole main_v1_0).slice (win0_4.rect t)).set ↔ _
  rw [View.set_slice_whole, Rect.mem_set_unit]
  exact Iff.rfl

theorem mem_blk0_5 (t : Fin cfg0.N) (i : S100000x64.Idx) :
    i ∈ ((cfg0.win 5).blk t).view.set
      ↔ ∀ a : Fin 2, win0_5.index t a * S5000x64.size a ≤ (i a).val ∧ (i a).val < win0_5.index t a * S5000x64.size a + S5000x64.size a := by
  show i ∈ ((View.whole main_v1_1).slice (win0_5.rect t)).set ↔ _
  rw [View.set_slice_whole, Rect.mem_set_unit]
  exact Iff.rfl

/-- Row r lies in the block of point r / 5000: the blocks tile the rows. -/
theorem cover0_4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨e0, e1, e2, e3, e4, e5, e6, e7, e8, e9, e10, e11⟩ := idx0 t
  refine ⟨t, flush0_4 t, ?_⟩
  rw [mem_blk0_4]
  intro a
  have ht : t.val = (i 0).val / 5000 := rfl
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

theorem cover0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨e0, e1, e2, e3, e4, e5, e6, e7, e8, e9, e10, e11⟩ := idx0 t
  refine ⟨t, flush0_5 t, ?_⟩
  rw [mem_blk0_5]
  intro a
  have ht : t.val = (i 0).val / 5000 := rfl
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The first output array after the call: the features times the first weight matrix. -/
theorem array0_4 (c : Dev nD) :
    (dat0 V c).arrAt 4 cfg0.N = DenseLayer.prod (a := 100000) (k := 74) (b := 64) (V c main_arg0) (V c main_arg4) :=
  (dat0 V c).arrAt_eq_of_cover 4 _ (fun t _ => flushed0_4 V c t) cover0_4

/-- The second: the positive part of the features times the second weight matrix plus the bias row. -/
theorem array0_5 (c : Dev nD) :
    (dat0 V c).arrAt 5 cfg0.N
      = DenseLayer.biasRelu (DenseLayer.prod (a := 100000) (k := 74) (b := 64) (V c main_arg0) (V c main_arg6)) (V c main_v0) :=
  (dat0 V c).arrAt_eq_of_cover 5 _ (fun t _ => flushed0_5 V c t) cover0_5

end Cert.KernelIdeal.Layers

end
-- ==== Proof.Region1.lean ====
/-
  The first layer's combining call, as a whole array.

  The call runs over 20 blocks of 5000 node rows. At block t it reads the same rows of the aggregated messages and of the
  residual branch and the whole bias row, and writes the same rows of relu (messages + bias) + residual. Every entry
  depends only on the entries at its own index, so each block is the restriction of one whole-array function, and the 20
  blocks tile the 100000 rows.
-/
import proofs.«181861_j11785390260437_1_alg».proof.Proof.Gen.KernelIdeal.Frame
import proofs.«181861_j11785390260437_1_alg».proof.Proof.LibDense

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_1 : (![0, 0] : Fin 2 → Nat) = fun _ => 0 := funext fun a => by fin_cases a <;> rfl

/-- The body's one store: the positive part of messages plus bias row, plus the residual. -/
theorem combine1_pay (x0 : FVec Ideal S5000x64 .f32) (x1 : FVec Ideal S1x64 .f32) (x2 : FVec Ideal S5000x64 .f32) :
    k1_pay1 (F := Ideal) x0 x1 x2 = DenseLayer.biasReluAdd (a := 5000) (b := 64) x0 x1 x2 := by
  unfold k1_pay1
  simp only [shapeCast_self]
  exact DenseLayer.kernel_biasReluAdd (a := 5000) (b := 64) broadcasts_S1x64_S5000x64 x0 x1 x2

/-- The block index maps over the 20 points: the row blocks move with the point, the bias row stays. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the combined array of the arrays the call found. -/
theorem flushed1 (c : Dev nD) (t : Fin cfg1.N) :
    (dat1 V c).flushed 3 t
      = ((cfg1.win 3).blk t).view.read (Elt Ideal)
          (DenseLayer.biasReluAdd (a := 100000) (b := 64) (V c main_v11) (V c main_v12) (V c main_v1_1)) := by
  show (cfg1.win 3).cut (grid1.coords t) ((dat1 V c).after 3 t) = _
  rw [after1_3]
  unfold out1_3
  rw [View.canon_unit_zero zero2_1]
  simp only [View.ld_unit_zero (S := S5000x64) zero2_1, View.ld_unit_zero (S := S1x64) zero2_1]
  obtain ⟨e0, e1, e2, e3, e4, e5, e6, e7⟩ := idx1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
      = DenseLayer.biasReluAdd (a := 100000) (b := 64) (V c main_v11) (V c main_v12) (V c main_v1_1)
          (((cfg1.win 3).blk t).view.emb (ix2 p q))
  rw [combine1_pay]
  unfold DenseLayer.biasReluAdd
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * q.val = win1_3.index t (1 : Fin 2) * 64 + 1 * q.val; omega
  have h2 : ((cfg1.win 2).blk t).view.emb (ix2 p q) = ((cfg1.win 3).blk t).view.emb (ix2 p q) := by
    funext a; apply Fin.ext
    match a with
    | ⟨0, _⟩ => show win1_2.index t (0 : Fin 2) * 5000 + 1 * p.val = win1_3.index t (0 : Fin 2) * 5000 + 1 * p.val; omega
    | ⟨1, _⟩ => show win1_2.index t (1 : Fin 2) * 64 + 1 * q.val = win1_3.index t (1 : Fin 2) * 64 + 1 * q.val; omega
  have h1 : ((cfg1.win 1).blk t).view.emb (ix2 (0 : Fin 1) q)
      = ix2 (0 : Fin 1) ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_3.index t (1 : Fin 2) * 64 + 1 * q.val; omega
  exact congrArg₂ (· + ·)
    (congrArg₂ max (congrArg₂ (· + ·) (congrArg (V c main_v11) h0) (congrArg (V c main_v12) h1)) rfl)
    (congrArg (V c main_v1_1) h2)

/-- An index is in point t's block iff its row is among the block's 5000 rows. -/
theorem mem_blk1 (t : Fin cfg1.N) (i : S100000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v13).slice (win1_3.rect t)).set ↔ _
  rw [View.set_slice_whole, Rect.mem_set_unit]
  exact Iff.rfl

/-- Row r lies in the block of point r / 5000: the blocks tile the rows. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨e0, e1, e2, e3, e4, e5, e6, e7⟩ := idx1 t
  refine ⟨t, flush1_3 t, ?_⟩
  rw [mem_blk1]
  intro a
  have ht : t.val = (i 0).val / 5000 := rfl
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the call: relu (messages + bias) + residual. -/
theorem array1 (c : Dev nD) :
    (dat1 V c).arrAt 3 cfg1.N
      = DenseLayer.biasReluAdd (a := 100000) (b := 64) (V c main_v11) (V c main_v12) (V c main_v1_1) :=
  (dat1 V c).arrAt_eq_of_cover 3 _ (fun t _ => flushed1 V c t) cover1

end Cert.KernelIdeal.Layers

end
-- ==== Proof.Region2.lean ====
/-
  The second layer's projection call, as whole arrays.

  The call runs over 20 blocks of 5000 node rows. At block t it reads rows 5000t .. 5000t+4999 of the node array and
  the whole of the two weight matrices and of the bias row, and writes the same rows of two outputs: the node array times
  the first weight matrix, and the positive part of the node array times the second weight matrix plus the bias row. An
  output entry depends only on its own node row, so every block is the restriction of one whole-array function, and
  the 20 blocks tile the 100000 rows: each output array ends as that function of the arrays the call found.
-/
import proofs.«181861_j11785390260437_1_alg».proof.Proof.Gen.KernelIdeal.Frame
import proofs.«181861_j11785390260437_1_alg».proof.Proof.LibDense

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_2 : (![0, 0] : Fin 2 → Nat) = fun _ => 0 := funext fun a => by fin_cases a <;> rfl

/-- The body's first store: the block of node rows times the weight matrix. -/
theorem proj2_pay (x0 : FVec Ideal S5000x64 .f32) (w : FVec Ideal S64x64 .f32) :
    k2_pay2 (F := Ideal) x0 w = DenseLayer.prod (a := 5000) (k := 64) (b := 64) x0 w := by
  unfold k2_pay2 k2_pay1
  simp only [shapeCast_self]
  exact DenseLayer.kernel_matmul dot_S5000x64_S64x64_S5000x64_1_0_0_1_n_n none rfl rfl rfl rfl rfl rfl rfl rfl
    bitsLt_bf16_f32 bitsLt_bf16_f32 x0 w

/-- The body's second store: the positive part of the block times the second weight matrix plus the bias row. -/
theorem res2_pay (x0 : FVec Ideal S5000x64 .f32) (r : FVec Ideal S64x64 .f32) (row : FVec Ideal S1x64 .f32) :
    k2_pay3 (F := Ideal) x0 r row = DenseLayer.biasRelu (DenseLayer.prod (a := 5000) (k := 64) (b := 64) x0 r) row := by
  unfold k2_pay3 k2_pay1
  simp only [shapeCast_self]
  exact (DenseLayer.kernel_biasRelu (a := 5000) (b := 64) broadcasts_S1x64_S5000x64 _ row).trans
    (congrArg (fun y => DenseLayer.biasRelu y row)
      (DenseLayer.kernel_matmul dot_S5000x64_S64x64_S5000x64_1_0_0_1_n_n none rfl rfl rfl rfl rfl rfl rfl rfl
        bitsLt_bf16_f32 bitsLt_bf16_f32 x0 r))

/-- The block index maps over the 20 points: the row blocks move with the point, everything else stays at block 0. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point t writes back to the first output is block t of the product of the arrays the call found. -/
theorem flushed2_4 (c : Dev nD) (t : Fin cfg2.N) :
    (dat2 V c).flushed 4 t
      = ((cfg2.win 4).blk t).view.read (Elt Ideal)
          (DenseLayer.prod (a := 100000) (k := 64) (b := 64) (V c main_v13) (V c main_arg8)) := by
  show (cfg2.win 4).cut (grid2.coords t) ((dat2 V c).after 4 t) = _
  rw [after2_4]
  unfold out2_4
  rw [View.canon_unit_zero zero2_2]
  simp only [View.ld_unit_zero (S := S5000x64) zero2_2, View.ld_unit_zero (S := S64x64) zero2_2]
  obtain ⟨e0, e1, e2, e3, e4, e5, e6, e7, e8, e9, e10, e11⟩ := idx2 t
  funext j
  obtain ⟨p, q, rfl⟩ : ∃ (p : Fin 5000) (q : Fin 64), j = ix2 p q := ⟨j 0, j 1, eq_ix2 j⟩
  show k2_pay2 (F := Ideal) (iblk2 V c 0 t) (iblk2 V c 1 t) (ix2 p q)
      = DenseLayer.prod (a := 100000) (k := 64) (b := 64) (V c main_v13) (V c main_arg8) (((cfg2.win 4).blk t).view.emb (ix2 p q))
  rw [proj2_pay]
  unfold DenseLayer.prod
  refine Finset.sum_congr rfl fun s _ => ?_
  have h0 : ((cfg2.win 0).blk t).view.emb (ix2 p s) = ix2 ((((cfg2.win 4).blk t).view.emb (ix2 p q)) 0) s := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * s.val = s.val; omega
  have h1 : ((cfg2.win 1).blk t).view.emb (ix2 s q) = ix2 s ((((cfg2.win 4).blk t).view.emb (ix2 p q)) 1) := by
    funext a; apply Fin.ext
    match a with
    | ⟨0, _⟩ => show win2_1.index t (0 : Fin 2) * 64 + 1 * s.val = s.val; omega
    | ⟨1, _⟩ => show win2_1.index t (1 : Fin 2) * 64 + 1 * q.val = win2_4.index t (1 : Fin 2) * 64 + 1 * q.val; omega
  refine congrArg₂ (· * ·) ?_ ?_
  · exact congrArg (V c main_v13) h0
  · exact congrArg (V c main_arg8) h1

/-- What point t writes back to the second output is block t of the biased, clamped product. -/
theorem flushed2_5 (c : Dev nD) (t : Fin cfg2.N) :
    (dat2 V c).flushed 5 t
      = ((cfg2.win 5).blk t).view.read (Elt Ideal)
          (DenseLayer.biasRelu (DenseLayer.prod (a := 100000) (k := 64) (b := 64) (V c main_v13) (V c main_arg10)) (V c main_v14)) := by
  show (cfg2.win 5).cut (grid2.coords t) ((dat2 V c).after 5 t) = _
  rw [after2_5]
  unfold out2_5
  rw [View.canon_unit_zero zero2_2]
  simp only [View.ld_unit_zero (S := S5000x64) zero2_2, View.ld_unit_zero (S := S64x64) zero2_2,
    View.ld_unit_zero (S := S1x64) zero2_2]
  obtain ⟨e0, e1, e2, e3, e4, e5, e6, e7, e8, e9, e10, e11⟩ := idx2 t
  funext j
  obtain ⟨p, q, rfl⟩ : ∃ (p : Fin 5000) (q : Fin 64), j = ix2 p q := ⟨j 0, j 1, eq_ix2 j⟩
  show k2_pay3 (F := Ideal) (iblk2 V c 0 t) (iblk2 V c 2 t) (iblk2 V c 3 t) (ix2 p q)
      = DenseLayer.biasRelu (DenseLayer.prod (a := 100000) (k := 64) (b := 64) (V c main_v13) (V c main_arg10)) (V c main_v14)
          (((cfg2.win 5).blk t).view.emb (ix2 p q))
  rw [res2_pay]
  unfold DenseLayer.biasRelu DenseLayer.prod
  have h3 : ((cfg2.win 3).blk t).view.emb (ix2 (0 : Fin 1) q)
      = ix2 (0 : Fin 1) ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  refine congrArg₂ max (congrArg₂ (· + ·) (Finset.sum_congr rfl fun s _ => ?_) (congrArg (V c main_v14) h3)) rfl
  have h0 : ((cfg2.win 0).blk t).view.emb (ix2 p s) = ix2 ((((cfg2.win 5).blk t).view.emb (ix2 p q)) 0) s := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * s.val = s.val; omega
  have h2 : ((cfg2.win 2).blk t).view.emb (ix2 s q) = ix2 s ((((cfg2.win 5).blk t).view.emb (ix2 p q)) 1) := by
    funext a; apply Fin.ext
    match a with
    | ⟨0, _⟩ => show win2_2.index t (0 : Fin 2) * 64 + 1 * s.val = s.val; omega
    | ⟨1, _⟩ => show win2_2.index t (1 : Fin 2) * 64 + 1 * q.val = win2_5.index t (1 : Fin 2) * 64 + 1 * q.val; omega
  refine congrArg₂ (· * ·) ?_ ?_
  · exact congrArg (V c main_v13) h0
  · exact congrArg (V c main_arg10) h2

/-- An index is in point t's block of the first output iff its row is among the block's 5000 rows. -/
theorem mem_blk2_4 (t : Fin cfg2.N) (i : S100000x64.Idx) :
    i ∈ ((cfg2.win 4).blk t).view.set
      ↔ ∀ a : Fin 2, win2_4.index t a * S5000x64.size a ≤ (i a).val ∧ (i a).val < win2_4.index t a * S5000x64.size a + S5000x64.size a := by
  show i ∈ ((View.whole main_v15_0).slice (win2_4.rect t)).set ↔ _
  rw [View.set_slice_whole, Rect.mem_set_unit]
  exact Iff.rfl

theorem mem_blk2_5 (t : Fin cfg2.N) (i : S100000x64.Idx) :
    i ∈ ((cfg2.win 5).blk t).view.set
      ↔ ∀ a : Fin 2, win2_5.index t a * S5000x64.size a ≤ (i a).val ∧ (i a).val < win2_5.index t a * S5000x64.size a + S5000x64.size a := by
  show i ∈ ((View.whole main_v15_1).slice (win2_5.rect t)).set ↔ _
  rw [View.set_slice_whole, Rect.mem_set_unit]
  exact Iff.rfl

/-- Row r lies in the block of point r / 5000: the blocks tile the rows. -/
theorem cover2_4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨e0, e1, e2, e3, e4, e5, e6, e7, e8, e9, e10, e11⟩ := idx2 t
  refine ⟨t, flush2_4 t, ?_⟩
  rw [mem_blk2_4]
  intro a
  have ht : t.val = (i 0).val / 5000 := rfl
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

theorem cover2_5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨e0, e1, e2, e3, e4, e5, e6, e7, e8, e9, e10, e11⟩ := idx2 t
  refine ⟨t, flush2_5 t, ?_⟩
  rw [mem_blk2_5]
  intro a
  have ht : t.val = (i 0).val / 5000 := rfl
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The first output array after the call: the node array times the first weight matrix. -/
theorem array2_4 (c : Dev nD) :
    (dat2 V c).arrAt 4 cfg2.N = DenseLayer.prod (a := 100000) (k := 64) (b := 64) (V c main_v13) (V c main_arg8) :=
  (dat2 V c).arrAt_eq_of_cover 4 _ (fun t _ => flushed2_4 V c t) cover2_4

/-- The second: the positive part of the node array times the second weight matrix plus the bias row. -/
theorem array2_5 (c : Dev nD) :
    (dat2 V c).arrAt 5 cfg2.N
      = DenseLayer.biasRelu (DenseLayer.prod (a := 100000) (k := 64) (b := 64) (V c main_v13) (V c main_arg10)) (V c main_v14) :=
  (dat2 V c).arrAt_eq_of_cover 5 _ (fun t _ => flushed2_5 V c t) cover2_5

end Cert.KernelIdeal.Layers

end
-- ==== Proof.Region3.lean ====
/-
  The second layer's combining call, as a whole array.

  The call runs over 20 blocks of 5000 node rows. At block t it reads the same rows of the aggregated messages and of the
  residual branch and the whole bias row, and writes the same rows of relu (messages + bias) + residual. Every entry
  depends only on the entries at its own index, so each block is the restriction of one whole-array function, and the 20
  blocks tile the 100000 rows.
-/
import proofs.«181861_j11785390260437_1_alg».proof.Proof.Gen.KernelIdeal.Frame
import proofs.«181861_j11785390260437_1_alg».proof.Proof.LibDense

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_3 : (![0, 0] : Fin 2 → Nat) = fun _ => 0 := funext fun a => by fin_cases a <;> rfl

/-- The body's one store: the positive part of messages plus bias row, plus the residual. -/
theorem combine3_pay (x0 : FVec Ideal S5000x64 .f32) (x1 : FVec Ideal S1x64 .f32) (x2 : FVec Ideal S5000x64 .f32) :
    k3_pay1 (F := Ideal) x0 x1 x2 = DenseLayer.biasReluAdd (a := 5000) (b := 64) x0 x1 x2 := by
  unfold k3_pay1
  simp only [shapeCast_self]
  exact DenseLayer.kernel_biasReluAdd (a := 5000) (b := 64) broadcasts_S1x64_S5000x64 x0 x1 x2

/-- The block index maps over the 20 points: the row blocks move with the point, the bias row stays. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the combined array of the arrays the call found. -/
theorem flushed3 (c : Dev nD) (t : Fin cfg3.N) :
    (dat3 V c).flushed 3 t
      = ((cfg3.win 3).blk t).view.read (Elt Ideal)
          (DenseLayer.biasReluAdd (a := 100000) (b := 64) (V c main_v25) (V c main_v26) (V c main_v15_1)) := by
  show (cfg3.win 3).cut (grid3.coords t) ((dat3 V c).after 3 t) = _
  rw [after3_3]
  unfold out3_3
  rw [View.canon_unit_zero zero2_3]
  simp only [View.ld_unit_zero (S := S5000x64) zero2_3, View.ld_unit_zero (S := S1x64) zero2_3]
  obtain ⟨e0, e1, e2, e3, e4, e5, e6, e7⟩ := idx3 t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (ix2 p q)
      = DenseLayer.biasReluAdd (a := 100000) (b := 64) (V c main_v25) (V c main_v26) (V c main_v15_1)
          (((cfg3.win 3).blk t).view.emb (ix2 p q))
  rw [combine3_pay]
  unfold DenseLayer.biasReluAdd
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h2 : ((cfg3.win 2).blk t).view.emb (ix2 p q) = ((cfg3.win 3).blk t).view.emb (ix2 p q) := by
    funext a; apply Fin.ext
    match a with
    | ⟨0, _⟩ => show win3_2.index t (0 : Fin 2) * 5000 + 1 * p.val = win3_3.index t (0 : Fin 2) * 5000 + 1 * p.val; omega
    | ⟨1, _⟩ => show win3_2.index t (1 : Fin 2) * 64 + 1 * q.val = win3_3.index t (1 : Fin 2) * 64 + 1 * q.val; omega
  have h1 : ((cfg3.win 1).blk t).view.emb (ix2 (0 : Fin 1) q)
      = ix2 (0 : Fin 1) ((((cfg3.win 3).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_3.index t (1 : Fin 2) * 64 + 1 * q.val; omega
  exact congrArg₂ (· + ·)
    (congrArg₂ max (congrArg₂ (· + ·) (congrArg (V c main_v25) h0) (congrArg (V c main_v26) h1)) rfl)
    (congrArg (V c main_v15_1) h2)

/-- An index is in point t's block iff its row is among the block's 5000 rows. -/
theorem mem_blk3 (t : Fin cfg3.N) (i : S100000x64.Idx) :
    i ∈ ((cfg3.win 3).blk t).view.set
      ↔ ∀ a : Fin 2, win3_3.index t a * S5000x64.size a ≤ (i a).val ∧ (i a).val < win3_3.index t a * S5000x64.size a + S5000x64.size a := by
  show i ∈ ((View.whole main_v27).slice (win3_3.rect t)).set ↔ _
  rw [View.set_slice_whole, Rect.mem_set_unit]
  exact Iff.rfl

/-- Row r lies in the block of point r / 5000: the blocks tile the rows. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  let t : Fin cfg3.N := ⟨(i 0).val / 5000, by show (i 0).val / 5000 < 20; omega⟩
  obtain ⟨e0, e1, e2, e3, e4, e5, e6, e7⟩ := idx3 t
  refine ⟨t, flush3_3 t, ?_⟩
  rw [mem_blk3]
  intro a
  have ht : t.val = (i 0).val / 5000 := rfl
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the call: relu (messages + bias) + residual. -/
theorem array3 (c : Dev nD) :
    (dat3 V c).arrAt 3 cfg3.N
      = DenseLayer.biasReluAdd (a := 100000) (b := 64) (V c main_v25) (V c main_v26) (V c main_v15_1) :=
  (dat3 V c).arrAt_eq_of_cover 3 _ (fun t _ => flushed3 V c t) cover3

end Cert.KernelIdeal.Layers

end
-- ==== Proof.Region4.lean ====
/-
  The third layer's projection call, as whole arrays.

  The call runs over 20 blocks of 5000 node rows. At block t it reads rows 5000t .. 5000t+4999 of the node array and
  the whole of the two weight matrices and of the bias row, and writes the same rows of two outputs: the node array times
  the first weight matrix, and the positive part of the node array times the second weight matrix plus the bias row. An
  output entry depends only on its own node row, so every block is the restriction of one whole-array function, and
  the 20 blocks tile the 100000 rows: each output array ends as that function of the arrays the call found.
-/
import proofs.«181861_j11785390260437_1_alg».proof.Proof.Gen.KernelIdeal.Frame
import proofs.«181861_j11785390260437_1_alg».proof.Proof.LibDense

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_4 : (![0, 0] : Fin 2 → Nat) = fun _ => 0 := funext fun a => by fin_cases a <;> rfl

/-- The body's first store: the block of node rows times the weight matrix. -/
theorem proj4_pay (x0 : FVec Ideal S5000x64 .f32) (w : FVec Ideal S64x64 .f32) :
    k4_pay2 (F := Ideal) x0 w = DenseLayer.prod (a := 5000) (k := 64) (b := 64) x0 w := by
  unfold k4_pay2 k4_pay1
  simp only [shapeCast_self]
  exact DenseLayer.kernel_matmul dot_S5000x64_S64x64_S5000x64_1_0_0_1_n_n none rfl rfl rfl rfl rfl rfl rfl rfl
    bitsLt_bf16_f32 bitsLt_bf16_f32 x0 w

/-- The body's second store: the positive part of the block times the second weight matrix plus the bias row. -/
theorem res4_pay (x0 : FVec Ideal S5000x64 .f32) (r : FVec Ideal S64x64 .f32) (row : FVec Ideal S1x64 .f32) :
    k4_pay3 (F := Ideal) x0 r row = DenseLayer.biasRelu (DenseLayer.prod (a := 5000) (k := 64) (b := 64) x0 r) row := by
  unfold k4_pay3 k4_pay1
  simp only [shapeCast_self]
  exact (DenseLayer.kernel_biasRelu (a := 5000) (b := 64) broadcasts_S1x64_S5000x64 _ row).trans
    (congrArg (fun y => DenseLayer.biasRelu y row)
      (DenseLayer.kernel_matmul dot_S5000x64_S64x64_S5000x64_1_0_0_1_n_n none rfl rfl rfl rfl rfl rfl rfl rfl
        bitsLt_bf16_f32 bitsLt_bf16_f32 x0 r))

/-- The block index maps over the 20 points: the row blocks move with the point, everything else stays at block 0. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- What point t writes back to the first output is block t of the product of the arrays the call found. -/
theorem flushed4_4 (c : Dev nD) (t : Fin cfg4.N) :
    (dat4 V c).flushed 4 t
      = ((cfg4.win 4).blk t).view.read (Elt Ideal)
          (DenseLayer.prod (a := 100000) (k := 64) (b := 64) (V c main_v27) (V c main_arg12)) := by
  show (cfg4.win 4).cut (grid4.coords t) ((dat4 V c).after 4 t) = _
  rw [after4_4]
  unfold out4_4
  rw [View.canon_unit_zero zero2_4]
  simp only [View.ld_unit_zero (S := S5000x64) zero2_4, View.ld_unit_zero (S := S64x64) zero2_4]
  obtain ⟨e0, e1, e2, e3, e4, e5, e6, e7, e8, e9, e10, e11⟩ := idx4 t
  funext j
  obtain ⟨p, q, rfl⟩ : ∃ (p : Fin 5000) (q : Fin 64), j = ix2 p q := ⟨j 0, j 1, eq_ix2 j⟩
  show k4_pay2 (F := Ideal) (iblk4 V c 0 t) (iblk4 V c 1 t) (ix2 p q)
      = DenseLayer.prod (a := 100000) (k := 64) (b := 64) (V c main_v27) (V c main_arg12) (((cfg4.win 4).blk t).view.emb (ix2 p q))
  rw [proj4_pay]
  unfold DenseLayer.prod
  refine Finset.sum_congr rfl fun s _ => ?_
  have h0 : ((cfg4.win 0).blk t).view.emb (ix2 p s) = ix2 ((((cfg4.win 4).blk t).view.emb (ix2 p q)) 0) s := by
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 64 + 1 * s.val = s.val; omega
  have h1 : ((cfg4.win 1).blk t).view.emb (ix2 s q) = ix2 s ((((cfg4.win 4).blk t).view.emb (ix2 p q)) 1) := by
    funext a; apply Fin.ext
    match a with
    | ⟨0, _⟩ => show win4_1.index t (0 : Fin 2) * 64 + 1 * s.val = s.val; omega
    | ⟨1, _⟩ => show win4_1.index t (1 : Fin 2) * 64 + 1 * q.val = win4_4.index t (1 : Fin 2) * 64 + 1 * q.val; omega
  refine congrArg₂ (· * ·) ?_ ?_
  · exact congrArg (V c main_v27) h0
  · exact congrArg (V c main_arg12) h1

/-- What point t writes back to the second output is block t of the biased, clamped product. -/
theorem flushed4_5 (c : Dev nD) (t : Fin cfg4.N) :
    (dat4 V c).flushed 5 t
      = ((cfg4.win 5).blk t).view.read (Elt Ideal)
          (DenseLayer.biasRelu (DenseLayer.prod (a := 100000) (k := 64) (b := 64) (V c main_v27) (V c main_arg14)) (V c main_v28)) := by
  show (cfg4.win 5).cut (grid4.coords t) ((dat4 V c).after 5 t) = _
  rw [after4_5]
  unfold out4_5
  rw [View.canon_unit_zero zero2_4]
  simp only [View.ld_unit_zero (S := S5000x64) zero2_4, View.ld_unit_zero (S := S64x64) zero2_4,
    View.ld_unit_zero (S := S1x64) zero2_4]
  obtain ⟨e0, e1, e2, e3, e4, e5, e6, e7, e8, e9, e10, e11⟩ := idx4 t
  funext j
  obtain ⟨p, q, rfl⟩ : ∃ (p : Fin 5000) (q : Fin 64), j = ix2 p q := ⟨j 0, j 1, eq_ix2 j⟩
  show k4_pay3 (F := Ideal) (iblk4 V c 0 t) (iblk4 V c 2 t) (iblk4 V c 3 t) (ix2 p q)
      = DenseLayer.biasRelu (DenseLayer.prod (a := 100000) (k := 64) (b := 64) (V c main_v27) (V c main_arg14)) (V c main_v28)
          (((cfg4.win 5).blk t).view.emb (ix2 p q))
  rw [res4_pay]
  unfold DenseLayer.biasRelu DenseLayer.prod
  have h3 : ((cfg4.win 3).blk t).view.emb (ix2 (0 : Fin 1) q)
      = ix2 (0 : Fin 1) ((((cfg4.win 5).blk t).view.emb (ix2 p q)) 1) := by
    funext a; apply Fin.ext
    match a with
    | ⟨0, _⟩ => show win4_3.index t (0 : Fin 2) * 1 + 1 * 0 = 0; omega
    | ⟨1, _⟩ => show win4_3.index t (1 : Fin 2) * 64 + 1 * q.val = win4_5.index t (1 : Fin 2) * 64 + 1 * q.val; omega
  refine congrArg₂ max (congrArg₂ (· + ·) (Finset.sum_congr rfl fun s _ => ?_) (congrArg (V c main_v28) h3)) rfl
  have h0 : ((cfg4.win 0).blk t).view.emb (ix2 p s) = ix2 ((((cfg4.win 5).blk t).view.emb (ix2 p q)) 0) s := by
    funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 64 + 1 * s.val = s.val; omega
  have h2 : ((cfg4.win 2).blk t).view.emb (ix2 s q) = ix2 s ((((cfg4.win 5).blk t).view.emb (ix2 p q)) 1) := by
    funext a; apply Fin.ext
    match a with
    | ⟨0, _⟩ => show win4_2.index t (0 : Fin 2) * 64 + 1 * s.val = s.val; omega
    | ⟨1, _⟩ => show win4_2.index t (1 : Fin 2) * 64 + 1 * q.val = win4_5.index t (1 : Fin 2) * 64 + 1 * q.val; omega
  refine congrArg₂ (· * ·) ?_ ?_
  · exact congrArg (V c main_v27) h0
  · exact congrArg (V c main_arg14) h2

/-- An index is in point t's block of the first output iff its row is among the block's 5000 rows. -/
theorem mem_blk4_4 (t : Fin cfg4.N) (i : S100000x64.Idx) :
    i ∈ ((cfg4.win 4).blk t).view.set
      ↔ ∀ a : Fin 2, win4_4.index t a * S5000x64.size a ≤ (i a).val ∧ (i a).val < win4_4.index t a * S5000x64.size a + S5000x64.size a := by
  show i ∈ ((View.whole main_v29_0).slice (win4_4.rect t)).set ↔ _
  rw [View.set_slice_whole, Rect.mem_set_unit]
  exact Iff.rfl

theorem mem_blk4_5 (t : Fin cfg4.N) (i : S100000x64.Idx) :
    i ∈ ((cfg4.win 5).blk t).view.set
      ↔ ∀ a : Fin 2, win4_5.index t a * S5000x64.size a ≤ (i a).val ∧ (i a).val < win4_5.index t a * S5000x64.size a + S5000x64.size a := by
  show i ∈ ((View.whole main_v29_1).slice (win4_5.rect t)).set ↔ _
  rw [View.set_slice_whole, Rect.mem_set_unit]
  exact Iff.rfl

/-- Row r lies in the block of point r / 5000: the blocks tile the rows. -/
theorem cover4_4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  let t : Fin cfg4.N := ⟨(i 0).val / 5000, by show (i 0).val / 5000 < 20; omega⟩
  obtain ⟨e0, e1, e2, e3, e4, e5, e6, e7, e8, e9, e10, e11⟩ := idx4 t
  refine ⟨t, flush4_4 t, ?_⟩
  rw [mem_blk4_4]
  intro a
  have ht : t.val = (i 0).val / 5000 := rfl
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

theorem cover4_5 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  let t : Fin cfg4.N := ⟨(i 0).val / 5000, by show (i 0).val / 5000 < 20; omega⟩
  obtain ⟨e0, e1, e2, e3, e4, e5, e6, e7, e8, e9, e10, e11⟩ := idx4 t
  refine ⟨t, flush4_5 t, ?_⟩
  rw [mem_blk4_5]
  intro a
  have ht : t.val = (i 0).val / 5000 := rfl
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The first output array after the call: the node array times the first weight matrix. -/
theorem array4_4 (c : Dev nD) :
    (dat4 V c).arrAt 4 cfg4.N = DenseLayer.prod (a := 100000) (k := 64) (b := 64) (V c main_v27) (V c main_arg12) :=
  (dat4 V c).arrAt_eq_of_cover 4 _ (fun t _ => flushed4_4 V c t) cover4_4

/-- The second: the positive part of the node array times the second weight matrix plus the bias row. -/
theorem array4_5 (c : Dev nD) :
    (dat4 V c).arrAt 5 cfg4.N
      = DenseLayer.biasRelu (DenseLayer.prod (a := 100000) (k := 64) (b := 64) (V c main_v27) (V c main_arg14)) (V c main_v28) :=
  (dat4 V c).arrAt_eq_of_cover 5 _ (fun t _ => flushed4_5 V c t) cover4_5

end Cert.KernelIdeal.Layers

end
-- ==== Proof.Region5.lean ====
/-
  The third layer's combining call, as a whole array.

  The call runs over 20 blocks of 5000 node rows. At block t it reads the same rows of the aggregated messages and of the
  residual branch and the whole bias row, and writes the same rows of relu (messages + bias) + residual. Every entry
  depends only on the entries at its own index, so each block is the restriction of one whole-array function, and the 20
  blocks tile the 100000 rows.
-/
import proofs.«181861_j11785390260437_1_alg».proof.Proof.Gen.KernelIdeal.Frame
import proofs.«181861_j11785390260437_1_alg».proof.Proof.LibDense

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_5 : (![0, 0] : Fin 2 → Nat) = fun _ => 0 := funext fun a => by fin_cases a <;> rfl

/-- The body's one store: the positive part of messages plus bias row, plus the residual. -/
theorem combine5_pay (x0 : FVec Ideal S5000x64 .f32) (x1 : FVec Ideal S1x64 .f32) (x2 : FVec Ideal S5000x64 .f32) :
    k5_pay1 (F := Ideal) x0 x1 x2 = DenseLayer.biasReluAdd (a := 5000) (b := 64) x0 x1 x2 := by
  unfold k5_pay1
  simp only [shapeCast_self]
  exact DenseLayer.kernel_biasReluAdd (a := 5000) (b := 64) broadcasts_S1x64_S5000x64 x0 x1 x2

/-- The block index maps over the 20 points: the row blocks move with the point, the bias row stays. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point t writes back is block t of the combined array of the arrays the call found. -/
theorem flushed5 (c : Dev nD) (t : Fin cfg5.N) :
    (dat5 V c).flushed 3 t
      = ((cfg5.win 3).blk t).view.read (Elt Ideal)
          (DenseLayer.biasReluAdd (a := 100000) (b := 64) (V c main_v39) (V c main_v40) (V c main_v29_1)) := by
  show (cfg5.win 3).cut (grid5.coords t) ((dat5 V c).after 3 t) = _
  rw [after5_3]
  unfold out5_3
  rw [View.canon_unit_zero zero2_5]
  simp only [View.ld_unit_zero (S := S5000x64) zero2_5, View.ld_unit_zero (S := S1x64) zero2_5]
  obtain ⟨e0, e1, e2, e3, e4, e5, e6, e7⟩ := idx5 t
  funext j
  obtain ⟨p, q, rfl⟩ : ∃ (p : Fin 5000) (q : Fin 64), j = ix2 p q := ⟨j 0, j 1, eq_ix2 j⟩
  show k5_pay1 (F := Ideal) (iblk5 V c 0 t) (iblk5 V c 1 t) (iblk5 V c 2 t) (ix2 p q)
      = DenseLayer.biasReluAdd (a := 100000) (b := 64) (V c main_v39) (V c main_v40) (V c main_v29_1)
          (((cfg5.win 3).blk t).view.emb (ix2 p q))
  rw [combine5_pay]
  unfold DenseLayer.biasReluAdd
  have h0 : ((cfg5.win 0).blk t).view.emb (ix2 p q) = ((cfg5.win 3).blk t).view.emb (ix2 p q) := by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 64 + 1 * q.val = win5_3.index t (1 : Fin 2) * 64 + 1 * q.val; omega
  have h2 : ((cfg5.win 2).blk t).view.emb (ix2 p q) = ((cfg5.win 3).blk t).view.emb (ix2 p q) := by
    funext a; apply Fin.ext
    match a with
    | ⟨0, _⟩ => show win5_2.index t (0 : Fin 2) * 5000 + 1 * p.val = win5_3.index t (0 : Fin 2) * 5000 + 1 * p.val; omega
    | ⟨1, _⟩ => show win5_2.index t (1 : Fin 2) * 64 + 1 * q.val = win5_3.index t (1 : Fin 2) * 64 + 1 * q.val; omega
  have h1 : ((cfg5.win 1).blk t).view.emb (ix2 (0 : Fin 1) q)
      = ix2 (0 : Fin 1) ((((cfg5.win 3).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_3.index t (1 : Fin 2) * 64 + 1 * q.val; omega
  exact congrArg₂ (· + ·)
    (congrArg₂ max (congrArg₂ (· + ·) (congrArg (V c main_v39) h0) (congrArg (V c main_v40) h1)) rfl)
    (congrArg (V c main_v29_1) h2)

/-- An index is in point t's block iff its row is among the block's 5000 rows. -/
theorem mem_blk5 (t : Fin cfg5.N) (i : S100000x64.Idx) :
    i ∈ ((cfg5.win 3).blk t).view.set
      ↔ ∀ a : Fin 2, win5_3.index t a * S5000x64.size a ≤ (i a).val ∧ (i a).val < win5_3.index t a * S5000x64.size a + S5000x64.size a := by
  show i ∈ ((View.whole main_v41).slice (win5_3.rect t)).set ↔ _
  rw [View.set_slice_whole, Rect.mem_set_unit]
  exact Iff.rfl

/-- Row r lies in the block of point r / 5000: the blocks tile the rows. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  let t : Fin cfg5.N := ⟨(i 0).val / 5000, by show (i 0).val / 5000 < 20; omega⟩
  obtain ⟨e0, e1, e2, e3, e4, e5, e6, e7⟩ := idx5 t
  refine ⟨t, flush5_3 t, ?_⟩
  rw [mem_blk5]
  intro a
  have ht : t.val = (i 0).val / 5000 := rfl
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The output array after the call: relu (messages + bias) + residual. -/
theorem array5 (c : Dev nD) :
    (dat5 V c).arrAt 3 cfg5.N
      = DenseLayer.biasReluAdd (a := 100000) (b := 64) (V c main_v39) (V c main_v40) (V c main_v29_1) :=
  (dat5 V c).arrAt_eq_of_cover 3 _ (fun t _ => flushed5 V c t) cover5

end Cert.KernelIdeal.Layers

end
-- ==== Proof.Region6.lean ====
/-
  The head call, as a whole array.

  The call has one grid point and every window is the whole of its array: the pooled graph rows, the two weight matrices
  and the two bias rows come in whole, and the 4096 by 1 output goes out whole. So each block read is the array itself,
  and the one block written is the whole output: relu (g Wm1 + bm1) Wm2 + bm2 of the arrays the call found.
-/
import proofs.«181861_j11785390260437_1_alg».proof.Proof.Gen.KernelIdeal.Frame
import proofs.«181861_j11785390260437_1_alg».proof.Proof.LibDense

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_6 : (![0, 0] : Fin 2 → Nat) = fun _ => 0 := funext fun a => by fin_cases a <;> rfl

/-- The body's one store: the two products with the bias rows and the clamp between them. -/
theorem head_pay (g : FVec Ideal S4096x64 .f32) (w1 : FVec Ideal S64x128 .f32) (r1 : FVec Ideal S1x128 .f32)
    (w2 : FVec Ideal S128x1 .f32) (r2 : FVec Ideal S1x1 .f32) :
    k6_pay1 (F := Ideal) g w1 r1 w2 r2
      = DenseLayer.biasAdd (a := 4096) (b := 1)
          (DenseLayer.prod (a := 4096) (k := 128) (b := 1)
            (DenseLayer.biasRelu (a := 4096) (b := 128) (DenseLayer.prod (a := 4096) (k := 64) (b := 128) g w1) r1) w2) r2 := by
  unfold k6_pay1
  simp only [shapeCast_self]
  exact (DenseLayer.kernel_biasAdd (a := 4096) (b := 1) broadcasts_S1x1_S4096x1 _ r2).trans
    (congrArg (fun y => DenseLayer.biasAdd y r2)
      ((DenseLayer.kernel_matmul dot_S4096x128_S128x1_S4096x1_1_0_0_1_n_n none rfl rfl rfl rfl rfl rfl rfl rfl
          bitsLt_bf16_f32 bitsLt_bf16_f32 _ w2).trans
        (congrArg (fun y => DenseLayer.prod y w2)
          ((DenseLayer.kernel_biasRelu (a := 4096) (b := 128) broadcasts_S1x128_S4096x128 _ r1).trans
            (congrArg (fun y => DenseLayer.biasRelu y r1)
              (DenseLayer.kernel_matmul dot_S4096x64_S64x128_S4096x128_1_0_0_1_n_n none rfl rfl rfl rfl rfl rfl rfl rfl
                bitsLt_bf16_f32 bitsLt_bf16_f32 g w1))))))

/-- Every window's block index at the one point is 0 on both axes. -/
theorem idx6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-! Each input block is its whole array. -/

theorem blk6_0 (c : Dev nD) (t : Fin cfg6.N) : iblk6 V c 0 t = V c main_v44 := by
  obtain ⟨e0, e1, e2, e3, e4, e5, e6, e7, e8, e9, e10, e11⟩ := idx6 t
  funext y
  have h : ((cfg6.win 0).blk t).view.emb y = y := by
    funext a; apply Fin.ext
    match a with
    | ⟨0, _⟩ => show win6_0.index t (0 : Fin 2) * 4096 + 1 * (y 0).val = (y 0).val; omega
    | ⟨1, _⟩ => show win6_0.index t (1 : Fin 2) * 64 + 1 * (y 1).val = (y 1).val; omega
  exact congrArg (V c main_v44) h
theorem blk6_1 (c : Dev nD) (t : Fin cfg6.N) : iblk6 V c 1 t = V c main_arg16 := by
  obtain ⟨e0, e1, e2, e3, e4, e5, e6, e7, e8, e9, e10, e11⟩ := idx6 t
  funext y
  have h : ((cfg6.win 1).blk t).view.emb y = y := by
    funext a; apply Fin.ext
    match a with
    | ⟨0, _⟩ => show win6_1.index t (0 : Fin 2) * 64 + 1 * (y 0).val = (y 0).val; omega
    | ⟨1, _⟩ => show win6_1.index t (1 : Fin 2) * 128 + 1 * (y 1).val = (y 1).val; omega
  exact congrArg (V c main_arg16) h
theorem blk6_2 (c : Dev nD) (t : Fin cfg6.N) : iblk6 V c 2 t = V c main_v45 := by
  obtain ⟨e0, e1, e2, e3, e4, e5, e6, e7, e8, e9, e10, e11⟩ := idx6 t
  funext y
  have h : ((cfg6.win 2).blk t).view.emb y = y := by
    funext a; apply Fin.ext
    match a with
    | ⟨0, _⟩ => show win6_2.index t (0 : Fin 2) * 1 + 1 * (y 0).val = (y 0).val; omega
    | ⟨1, _⟩ => show win6_2.index t (1 : Fin 2) * 128 + 1 * (y 1).val = (y 1).val; omega
  exact congrArg (V c main_v45) h
theorem blk6_3 (c : Dev nD) (t : Fin cfg6.N) : iblk6 V c 3 t = V c main_arg18 := by
  obtain ⟨e0, e1, e2, e3, e4, e5, e6, e7, e8, e9, e10, e11⟩ := idx6 t
  funext y
  have h : ((cfg6.win 3).blk t).view.emb y = y := by
    funext a; apply Fin.ext
    match a with
    | ⟨0, _⟩ => show win6_3.index t (0 : Fin 2) * 128 + 1 * (y 0).val = (y 0).val; omega
    | ⟨1, _⟩ => show win6_3.index t (1 : Fin 2) * 1 + 1 * (y 1).val = (y 1).val; omega
  exact congrArg (V c main_arg18) h
theorem blk6_4 (c : Dev nD) (t : Fin cfg6.N) : iblk6 V c 4 t = V c main_v46 := by
  obtain ⟨e0, e1, e2, e3, e4, e5, e6, e7, e8, e9, e10, e11⟩ := idx6 t
  funext y
  have h : ((cfg6.win 4).blk t).view.emb y = y := by
    funext a; apply Fin.ext
    match a with
    | ⟨0, _⟩ => show win6_4.index t (0 : Fin 2) * 1 + 1 * (y 0).val = (y 0).val; omega
    | ⟨1, _⟩ => show win6_4.index t (1 : Fin 2) * 1 + 1 * (y 1).val = (y 1).val; omega
  exact congrArg (V c main_v46) h

/-- What the one point writes back is the whole head output of the arrays the call found. -/
theorem flushed6 (c : Dev nD) (t : Fin cfg6.N) :
    (dat6 V c).flushed 5 t
      = ((cfg6.win 5).blk t).view.read (Elt Ideal)
          (DenseLayer.biasAdd (a := 4096) (b := 1)
            (DenseLayer.prod (a := 4096) (k := 128) (b := 1)
              (DenseLayer.biasRelu (a := 4096) (b := 128)
                (DenseLayer.prod (a := 4096) (k := 64) (b := 128) (V c main_v44) (V c main_arg16)) (V c main_v45))
              (V c main_arg18)) (V c main_v46)) := by
  show (cfg6.win 5).cut (grid6.coords t) ((dat6 V c).after 5 t) = _
  rw [after6_5]
  unfold out6_5
  rw [View.canon_unit_zero zero2_6]
  simp only [View.ld_unit_zero (S := S4096x64) zero2_6, View.ld_unit_zero (S := S64x128) zero2_6,
    View.ld_unit_zero (S := S1x128) zero2_6, View.ld_unit_zero (S := S128x1) zero2_6, View.ld_unit_zero (S := S1x1) zero2_6]
  rw [blk6_0 V c t, blk6_1 V c t, blk6_2 V c t, blk6_3 V c t, blk6_4 V c t, head_pay]
  obtain ⟨e0, e1, e2, e3, e4, e5, e6, e7, e8, e9, e10, e11⟩ := idx6 t
  funext j
  have h : ((cfg6.win 5).blk t).view.emb j = j := by
    funext a; apply Fin.ext
    match a with
    | ⟨0, _⟩ => show win6_5.index t (0 : Fin 2) * 4096 + 1 * (j 0).val = (j 0).val; omega
    | ⟨1, _⟩ => show win6_5.index t (1 : Fin 2) * 1 + 1 * (j 1).val = (j 1).val; omega
  exact (congrArg (DenseLayer.biasAdd (a := 4096) (b := 1)
            (DenseLayer.prod (a := 4096) (k := 128) (b := 1)
              (DenseLayer.biasRelu (a := 4096) (b := 128)
                (DenseLayer.prod (a := 4096) (k := 64) (b := 128) (V c main_v44) (V c main_arg16)) (V c main_v45))
              (V c main_arg18)) (V c main_v46)) h).symm

/-- An index is in the one block iff each coordinate is in range, which it always is. -/
theorem mem_blk6 (t : Fin cfg6.N) (i : S4096x1.Idx) :
    i ∈ ((cfg6.win 5).blk t).view.set
      ↔ ∀ a : Fin 2, win6_5.index t a * S4096x1.size a ≤ (i a).val ∧ (i a).val < win6_5.index t a * S4096x1.size a + S4096x1.size a := by
  show i ∈ ((View.whole main_v47).slice (win6_5.rect t)).set ↔ _
  rw [View.set_slice_whole, Rect.mem_set_unit]
  exact Iff.rfl

theorem cover6 (i : S4096x1.Idx) :
    ∃ t : Fin cfg6.N, (cfg6.win 5).flush t = true ∧ i ∈ ((cfg6.win 5).blk t).view.set := by
  have hi0 : (i 0).val < 4096 := (i 0).isLt
  have hi1 : (i 1).val < 1 := (i 1).isLt
  let t : Fin cfg6.N := ⟨0, by show 0 < 1; omega⟩
  obtain ⟨e0, e1, e2, e3, e4, e5, e6, e7, e8, e9, e10, e11⟩ := idx6 t
  refine ⟨t, flush6_5 t, ?_⟩
  rw [mem_blk6]
  intro a
  match a with
  | ⟨0, _⟩ => show win6_5.index t (0 : Fin 2) * 4096 ≤ (i 0).val ∧ (i 0).val < win6_5.index t (0 : Fin 2) * 4096 + 4096; omega
  | ⟨1, _⟩ => show win6_5.index t (1 : Fin 2) * 1 ≤ (i 1).val ∧ (i 1).val < win6_5.index t (1 : Fin 2) * 1 + 1; omega

/-- The output array after the call. -/
theorem array6 (c : Dev nD) :
    (dat6 V c).arrAt 5 cfg6.N
      = DenseLayer.biasAdd (a := 4096) (b := 1)
          (DenseLayer.prod (a := 4096) (k := 128) (b := 1)
            (DenseLayer.biasRelu (a := 4096) (b := 128)
              (DenseLayer.prod (a := 4096) (k := 64) (b := 128) (V c main_v44) (V c main_arg16)) (V c main_v45))
            (V c main_arg18)) (V c main_v46) :=
  (dat6 V c).arrAt_eq_of_cover 5 _ (fun t _ => flushed6 V c t) cover6

end Cert.KernelIdeal.Layers

end
-- ==== Proof.Spec.lean ====
/-
  The function both programs compute, as one composition.

  A node array x (100000 rows) goes through three layers. A layer with weights W, R and biases b, rb sends x to
      relu (A (x W) + b) + relu (x R + rb),
  where A sums, into each node's row, the rows of x W at the sources of the edges that end at that node (a gather along
  the edge list followed by an accumulating scatter; a negative source index is wrapped once, as array indexing does).
  The result is summed per graph (an accumulating scatter by graph id into 4096 rows) and passed through a two-layer
  head: relu (g Wm1 + bm1) Wm2 + bm2. The aggregation A and the pooling are never opened: they are applied to arrays
  shown equal. The terms are those of the plain jnp program; its shapes and dimension records are the names used here.
-/
import proofs.«181861_j11785390260437_1_alg».proof.Proof.Gen.ReferenceIdeal

noncomputable section

namespace Cert.Gcn

open Cert.ReferenceIdeal Cert.ReferenceIdeal.Gen Idealize.ShloMosaic

variable {F : FTy → Type} [FloatOps F]

/-- Sum over incoming edges: the rows of `xw` at the edges' sources, accumulated at the edges' destinations. -/
def aggregate (xw : (⟨S100000x64, .f32⟩ : BufTy).Contents (Elt F)) (src dst : (⟨S3200000, .i32⟩ : BufTy).Contents (Elt F)) :
    (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (Host.gather gather_S100000x64_S3200000x1_S3200000x64_1_0_n_n_0_1_164 xw
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- A bias vector added to every row of a node array, then the positive part. -/
def biasRelu64 (y : (⟨S100000x64, .f32⟩ : BufTy).Contents (Elt F)) (b : (⟨S64, .f32⟩ : BufTy).Contents (Elt F)) :
    (⟨S100000x64, .f32⟩ : BufTy).Contents (Elt F) :=
  maximumf (addf y (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- A layer from its two projections: relu (A xw + b) + relu (xr + rb). -/
def combine (xw xr : (⟨S100000x64, .f32⟩ : BufTy).Contents (Elt F)) (src dst : (⟨S3200000, .i32⟩ : BufTy).Contents (Elt F))
    (b rb : (⟨S64, .f32⟩ : BufTy).Contents (Elt F)) : (⟨S100000x64, .f32⟩ : BufTy).Contents (Elt F) :=
  addf (biasRelu64 (aggregate xw src dst) b) (biasRelu64 xr rb)

/-- The first layer (74 input features). -/
def layer74 (x : (⟨S100000x74, .f32⟩ : BufTy).Contents (Elt F)) (src dst : (⟨S3200000, .i32⟩ : BufTy).Contents (Elt F))
    (W : (⟨S74x64, .f32⟩ : BufTy).Contents (Elt F)) (b : (⟨S64, .f32⟩ : BufTy).Contents (Elt F))
    (R : (⟨S74x64, .f32⟩ : BufTy).Contents (Elt F)) (rb : (⟨S64, .f32⟩ : BufTy).Contents (Elt F)) :
    (⟨S100000x64, .f32⟩ : BufTy).Contents (Elt F) :=
  combine (Host.dotGeneral dot_S100000x74_S74x64_S100000x64_1_0_0_1_n_n none x W)
    (Host.dotGeneral dot_S100000x74_S74x64_S100000x64_1_0_0_1_n_n none x R) src dst b rb

/-- A later layer (64 input features). -/
def layer64 (x : (⟨S100000x64, .f32⟩ : BufTy).Contents (Elt F)) (src dst : (⟨S3200000, .i32⟩ : BufTy).Contents (Elt F))
    (W : (⟨S64x64, .f32⟩ : BufTy).Contents (Elt F)) (b : (⟨S64, .f32⟩ : BufTy).Contents (Elt F))
    (R : (⟨S64x64, .f32⟩ : BufTy).Contents (Elt F)) (rb : (⟨S64, .f32⟩ : BufTy).Contents (Elt F)) :
    (⟨S100000x64, .f32⟩ : BufTy).Contents (Elt F) :=
  combine (Host.dotGeneral dot_S100000x64_S64x64_S100000x64_1_0_0_1_n_n none x W)
    (Host.dotGeneral dot_S100000x64_S64x64_S100000x64_1_0_0_1_n_n none x R) src dst b rb

/-- The per-graph sum of node rows. -/
def pool (x : (⟨S100000x64, .f32⟩ : BufTy).Contents (Elt F)) (gid : (⟨S100000, .i32⟩ : BufTy).Contents (Elt F)) :
    (⟨S4096x64, .f32⟩ : BufTy).Contents (Elt F) :=
  Host.scatterAdd scatter_S4096x64_S100000x1_S100000x64_1_0_0_1
    (broadcastInDim S4096x64 ![] bcast_S_S4096x64 (constant S_ .f32 0x00000000#32))
    (broadcastInDim S100000x1 ![0] bcast_S100000_S100000x1_0 gid) x

/-- The two-layer head: relu (g Wm1 + bm1) Wm2 + bm2. -/
def head (g : (⟨S4096x64, .f32⟩ : BufTy).Contents (Elt F)) (Wm1 : (⟨S64x128, .f32⟩ : BufTy).Contents (Elt F))
    (bm1 : (⟨S128, .f32⟩ : BufTy).Contents (Elt F)) (Wm2 : (⟨S128x1, .f32⟩ : BufTy).Contents (Elt F))
    (bm2 : (⟨S1, .f32⟩ : BufTy).Contents (Elt F)) : (⟨S4096x1, .f32⟩ : BufTy).Contents (Elt F) :=
  addf (Host.dotGeneral dot_S4096x128_S128x1_S4096x1_1_0_0_1_n_n none
      (maximumf (addf (Host.dotGeneral dot_S4096x64_S64x128_S4096x128_1_0_0_1_n_n none g Wm1)
          (broadcastInDim S4096x128 ![0, 1] bcast_S1x128_S4096x128_0_1 (broadcastInDim S1x128 ![1] bcast_S128_S1x128_1 bm1)))
        (broadcastInDim S4096x128 ![] bcast_S_S4096x128 (constant S_ .f32 0x00000000#32)))
      Wm2)
    (broadcastInDim S4096x1 ![0, 1] bcast_S1x1_S4096x1_0_1 (broadcastInDim S1x1 ![1] bcast_S1_S1x1_1 bm2))

/-- The whole network. -/
def forward (feats : (⟨S100000x74, .f32⟩ : BufTy).Contents (Elt F)) (src dst : (⟨S3200000, .i32⟩ : BufTy).Contents (Elt F))
    (gid : (⟨S100000, .i32⟩ : BufTy).Contents (Elt F))
    (W0 : (⟨S74x64, .f32⟩ : BufTy).Contents (Elt F)) (b0 : (⟨S64, .f32⟩ : BufTy).Contents (Elt F))
    (R0 : (⟨S74x64, .f32⟩ : BufTy).Contents (Elt F)) (rb0 : (⟨S64, .f32⟩ : BufTy).Contents (Elt F))
    (W1 : (⟨S64x64, .f32⟩ : BufTy).Contents (Elt F)) (b1 : (⟨S64, .f32⟩ : BufTy).Contents (Elt F))
    (R1 : (⟨S64x64, .f32⟩ : BufTy).Contents (Elt F)) (rb1 : (⟨S64, .f32⟩ : BufTy).Contents (Elt F))
    (W2 : (⟨S64x64, .f32⟩ : BufTy).Contents (Elt F)) (b2 : (⟨S64, .f32⟩ : BufTy).Contents (Elt F))
    (R2 : (⟨S64x64, .f32⟩ : BufTy).Contents (Elt F)) (rb2 : (⟨S64, .f32⟩ : BufTy).Contents (Elt F))
    (Wm1 : (⟨S64x128, .f32⟩ : BufTy).Contents (Elt F)) (bm1 : (⟨S128, .f32⟩ : BufTy).Contents (Elt F))
    (Wm2 : (⟨S128x1, .f32⟩ : BufTy).Contents (Elt F)) (bm2 : (⟨S1, .f32⟩ : BufTy).Contents (Elt F)) :
    (⟨S4096x1, .f32⟩ : BufTy).Contents (Elt F) :=
  head (pool (layer64 (layer64 (layer74 feats src dst W0 b0 R0 rb0) src dst W1 b1 R1 rb1) src dst W2 b2 R2 rb2) gid)
    Wm1 bm1 Wm2 bm2

end Cert.Gcn

end
-- ==== Proof.Bridge.lean ====
/-
  The network's pieces entry by entry.

  A layer of the specification, written with the host's dot_general, broadcasts and maximum, is the same array as the
  entry-by-entry form a kernel computes: relu (A (x W) + b) + relu (x R + rb) with each product a plain sum over the
  shared axis and each bias vector read as a one-row array; likewise the head. The aggregation A is applied to equal
  arrays on both sides and is not opened.
-/
import proofs.«181861_j11785390260437_1_alg».proof.Proof.Spec
import proofs.«181861_j11785390260437_1_alg».proof.Proof.LibDense

set_option maxRecDepth 16384

noncomputable section

namespace Cert.Gcn

open Cert.ReferenceIdeal Cert.ReferenceIdeal.Gen Idealize.ShloMosaic

/-- The host's product of a node array with a 74 by 64 weight matrix is the plain sum. -/
theorem dot74_eq (x : FVec Ideal S100000x74 .f32) (W : FVec Ideal S74x64 .f32) :
    Host.dotGeneral (F := Ideal) dot_S100000x74_S74x64_S100000x64_1_0_0_1_n_n none x W
      = DenseLayer.prod (a := 100000) (k := 74) (b := 64) x W :=
  DenseLayer.host_dot dot_S100000x74_S74x64_S100000x64_1_0_0_1_n_n none rfl rfl rfl rfl rfl rfl rfl rfl x W

/-- The same with a 64 by 64 weight matrix. -/
theorem dot64_eq (x : FVec Ideal S100000x64 .f32) (W : FVec Ideal S64x64 .f32) :
    Host.dotGeneral (F := Ideal) dot_S100000x64_S64x64_S100000x64_1_0_0_1_n_n none x W
      = DenseLayer.prod (a := 100000) (k := 64) (b := 64) x W :=
  DenseLayer.host_dot dot_S100000x64_S64x64_S100000x64_1_0_0_1_n_n none rfl rfl rfl rfl rfl rfl rfl rfl x W

/-- A bias vector added to every row and clamped: the vector read as a one-row array. -/
theorem biasRelu64_eq (y : FVec Ideal S100000x64 .f32) (b : FVec Ideal S64 .f32) (h : S64.ShapeCasts S1x64) :
    biasRelu64 (F := Ideal) y b = DenseLayer.biasRelu (a := 100000) (b := 64) y (shapeCast S1x64 b h) :=
  DenseLayer.host_biasRelu (a := 100000) (b := 64) bcast_S_S100000x64 bcast_S64_S1x64_1 bcast_S1x64_S100000x64_0_1 h y b

/-- A layer from its two projections, entry by entry. -/
theorem combine_eq (xw xr : FVec Ideal S100000x64 .f32) (src dst : (⟨S3200000, .i32⟩ : BufTy).Contents (Elt Ideal)) (b rb : FVec Ideal S64 .f32)
    (h : S64.ShapeCasts S1x64) :
    DenseLayer.biasReluAdd (a := 100000) (b := 64) (aggregate (F := Ideal) xw src dst) (shapeCast S1x64 b h)
        (DenseLayer.biasRelu (a := 100000) (b := 64) xr (shapeCast S1x64 rb h))
      = combine (F := Ideal) xw xr src dst b rb := by
  unfold combine
  rw [biasRelu64_eq _ b h, biasRelu64_eq _ rb h]
  rfl

/-- The first layer, entry by entry. -/
theorem layer74_eq (x : FVec Ideal S100000x74 .f32) (src dst : (⟨S3200000, .i32⟩ : BufTy).Contents (Elt Ideal)) (W : FVec Ideal S74x64 .f32) (b : FVec Ideal S64 .f32)
    (R : FVec Ideal S74x64 .f32) (rb : FVec Ideal S64 .f32) (h : S64.ShapeCasts S1x64) :
    DenseLayer.biasReluAdd (a := 100000) (b := 64)
        (aggregate (F := Ideal) (DenseLayer.prod (a := 100000) (k := 74) (b := 64) x W) src dst) (shapeCast S1x64 b h)
        (DenseLayer.biasRelu (a := 100000) (b := 64) (DenseLayer.prod (a := 100000) (k := 74) (b := 64) x R) (shapeCast S1x64 rb h))
      = layer74 (F := Ideal) x src dst W b R rb := by
  unfold layer74
  rw [dot74_eq, dot74_eq]
  exact combine_eq _ _ src dst b rb h

/-- A later layer, entry by entry. -/
theorem layer64_eq (x : FVec Ideal S100000x64 .f32) (src dst : (⟨S3200000, .i32⟩ : BufTy).Contents (Elt Ideal)) (W : FVec Ideal S64x64 .f32) (b : FVec Ideal S64 .f32)
    (R : FVec Ideal S64x64 .f32) (rb : FVec Ideal S64 .f32) (h : S64.ShapeCasts S1x64) :
    DenseLayer.biasReluAdd (a := 100000) (b := 64)
        (aggregate (F := Ideal) (DenseLayer.prod (a := 100000) (k := 64) (b := 64) x W) src dst) (shapeCast S1x64 b h)
        (DenseLayer.biasRelu (a := 100000) (b := 64) (DenseLayer.prod (a := 100000) (k := 64) (b := 64) x R) (shapeCast S1x64 rb h))
      = layer64 (F := Ideal) x src dst W b R rb := by
  unfold layer64
  rw [dot64_eq, dot64_eq]
  exact combine_eq _ _ src dst b rb h

/-- The head, entry by entry. -/
theorem head_eq (g : FVec Ideal S4096x64 .f32) (Wm1 : FVec Ideal S64x128 .f32) (bm1 : FVec Ideal S128 .f32) (Wm2 : FVec Ideal S128x1 .f32) (bm2 : FVec Ideal S1 .f32)
    (h1 : S128.ShapeCasts S1x128) (h2 : S1.ShapeCasts S1x1) :
    DenseLayer.biasAdd (a := 4096) (b := 1)
        (DenseLayer.prod (a := 4096) (k := 128) (b := 1)
          (DenseLayer.biasRelu (a := 4096) (b := 128) (DenseLayer.prod (a := 4096) (k := 64) (b := 128) g Wm1)
            (shapeCast S1x128 bm1 h1)) Wm2)
        (shapeCast S1x1 bm2 h2)
      = head (F := Ideal) g Wm1 bm1 Wm2 bm2 := by
  unfold head
  rw [DenseLayer.host_dot dot_S4096x64_S64x128_S4096x128_1_0_0_1_n_n none rfl rfl rfl rfl rfl rfl rfl rfl g Wm1,
    DenseLayer.host_biasRelu (a := 4096) (b := 128) bcast_S_S4096x128 bcast_S128_S1x128_1 bcast_S1x128_S4096x128_0_1 h1,
    DenseLayer.host_dot dot_S4096x128_S128x1_S4096x1_1_0_0_1_n_n none rfl rfl rfl rfl rfl rfl rfl rfl,
    DenseLayer.host_biasAdd (a := 4096) (b := 1) bcast_S1_S1x1_1 bcast_S1x1_S4096x1_0_1 h2]

end Cert.Gcn

end
-- ==== Proof.Chain.lean ====
/-
  The result buffer, boundary by boundary.

  The program's buffer contents are followed from the launch to the return. Each projection call leaves the layer's input
  times its two weight matrices (the second biased and clamped); the host stretch after it sums the first product over
  incoming edges and reshapes the bias vector; the combining call leaves relu (messages + bias) + residual, which is the
  specification's layer of the launch arrays. After three layers the last stretch pools the node rows per graph and the
  head call leaves the specification's head of the pooled rows. The two accumulating scatters are carried as the same
  function on both sides.
-/
import proofs.«181861_j11785390260437_1_alg».proof.Proof.Kept
import proofs.«181861_j11785390260437_1_alg».proof.Proof.Region0
import proofs.«181861_j11785390260437_1_alg».proof.Proof.Region1
import proofs.«181861_j11785390260437_1_alg».proof.Proof.Region2
import proofs.«181861_j11785390260437_1_alg».proof.Proof.Region3
import proofs.«181861_j11785390260437_1_alg».proof.Proof.Region4
import proofs.«181861_j11785390260437_1_alg».proof.Proof.Region5
import proofs.«181861_j11785390260437_1_alg».proof.Proof.Region6
import proofs.«181861_j11785390260437_1_alg».proof.Proof.Bridge
import Idealize.ShloMosaic.Lib.StableHlo.Run

set_option maxRecDepth 16384
set_option maxHeartbeats 4000000

noncomputable section

namespace Cert.KernelIdeal.Named

open Cert.KernelIdeal Cert.KernelIdeal.Gen
open Idealize.ShloMosaic Idealize.ShloMosaic.TcCoe Idealize.SL.Sem Idealize.ShloMosaic.StableHlo

/-- The sum over incoming edges as the kernel program's host stretch spells it. -/
def aggK (xw : FVec Ideal S100000x64 .f32) (src dst : (⟨S3200000, .i32⟩ : BufTy).Contents (Elt Ideal)) :
    FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164 xw
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- It is the specification's: the two programs' dimension records have the same fields. -/
theorem aggK_eq (xw : FVec Ideal S100000x64 .f32) (src dst : (⟨S3200000, .i32⟩ : BufTy).Contents (Elt Ideal)) :
    aggK xw src dst = Cert.Gcn.aggregate (F := Ideal) xw src dst := rfl

/-- Equal operands give the specification's sum over incoming edges. -/
theorem aggK_congr {x x' : FVec Ideal S100000x64 .f32} {s s' d d' : (⟨S3200000, .i32⟩ : BufTy).Contents (Elt Ideal)}
    (hx : x = x') (hs : s = s') (hd : d = d') : aggK x s d = Cert.Gcn.aggregate (F := Ideal) x' s' d' := by
  subst hx hs hd
  rfl

/-- The per-graph sum as the kernel program's host stretch spells it. -/
def poolK (x : FVec Ideal S100000x64 .f32) (gid : (⟨S100000, .i32⟩ : BufTy).Contents (Elt Ideal)) : FVec Ideal S4096x64 .f32 :=
  Host.scatterAdd scatter_S4096x64_S100000x1_S100000x64_1_0_0_1
    (broadcastInDim S4096x64 ![] bcast_S_S4096x64 (constant (F := Ideal) S_ .f32 0x00000000#32))
    (broadcastInDim S100000x1 ![0] bcast_S100000_S100000x1_0 gid) x

theorem poolK_eq (x : FVec Ideal S100000x64 .f32) (gid : (⟨S100000, .i32⟩ : BufTy).Contents (Elt Ideal)) :
    poolK x gid = Cert.Gcn.pool (F := Ideal) x gid := rfl

variable (m : (ℓ : Loc nD τ sig) → Buf (Elt Ideal) ℓ) (ρ : Dev nD → PrngReg)

/-! ## Layer 1 -/

/-- The residual branch's bias row as the projection call finds it: the bias vector as one row. -/
theorem rrow_l1 (c : Dev nD) : W1 m ρ c (Proc.devRef .tc main_v0) = shapeCast S1x64 (m ((c : Thread nD τ).loc main_arg7)) shapeCasts_S64_S1x64 := by
  have h : W1 m ρ c (Proc.devRef .tc main_v0)
      = shapeCast S1x64 (W0 m ρ c (Proc.devRef .tc main_arg7)) shapeCasts_S64_S1x64 := by
    show StableHlo.after hostOps0 (W0 m ρ c) (Proc.devRef .tc main_v0) = _
    generalize W0 m ρ c = Wv
    after_results <;> rfl
  rw [h, arg_at0 m ρ c main_arg7]

/-- After the projection call: the layer's input times the first weight matrix. -/
theorem xw_l1 (c : Dev nD) : W2 m ρ c (Proc.devRef .tc main_v1_0) = (DenseLayer.prod (a := 100000) (k := 74) (b := 64) (m ((c : Thread nD τ).loc main_arg0)) (m ((c : Thread nD τ).loc main_arg4))) :=
  ((W2_arr m ρ c 4).trans (Layers.array0_4 (V1 m ρ) c)).trans
    (congrArg₂ (DenseLayer.prod (a := 100000) (k := 74) (b := 64)) (arg_at1 m ρ c main_arg0 (by decide)) (arg_at1 m ρ c main_arg4 (by decide)))

/-- And the residual branch: the positive part of the input times the second weight matrix plus its bias. -/
theorem res_l1 (c : Dev nD) : W2 m ρ c (Proc.devRef .tc main_v1_1) = (DenseLayer.biasRelu (a := 100000) (b := 64) (DenseLayer.prod (a := 100000) (k := 74) (b := 64) (m ((c : Thread nD τ).loc main_arg0)) (m ((c : Thread nD τ).loc main_arg6))) (shapeCast S1x64 (m ((c : Thread nD τ).loc main_arg7)) shapeCasts_S64_S1x64)) :=
  ((W2_arr m ρ c 5).trans (Layers.array0_5 (V1 m ρ) c)).trans
    (congrArg₂ (DenseLayer.biasRelu (a := 100000) (b := 64))
      (congrArg₂ (DenseLayer.prod (a := 100000) (k := 74) (b := 64)) (arg_at1 m ρ c main_arg0 (by decide)) (arg_at1 m ρ c main_arg6 (by decide)))
      (rrow_l1 m ρ c))

/-- After the host stretch: the messages summed over incoming edges. -/
theorem agg_l1 (c : Dev nD) :
    W3 m ρ c (Proc.devRef .tc main_v11) = Cert.Gcn.aggregate (F := Ideal) (DenseLayer.prod (a := 100000) (k := 74) (b := 64) (m ((c : Thread nD τ).loc main_arg0)) (m ((c : Thread nD τ).loc main_arg4))) (m ((c : Thread nD τ).loc main_arg1)) (m ((c : Thread nD τ).loc main_arg2)) := by
  have h : W3 m ρ c (Proc.devRef .tc main_v11)
      = aggK (W2 m ρ c (Proc.devRef .tc main_v1_0)) (W2 m ρ c (Proc.devRef .tc main_arg1)) (W2 m ρ c (Proc.devRef .tc main_arg2)) := by
    show StableHlo.after hostOps1 (W2 m ρ c) (Proc.devRef .tc main_v11) = _
    generalize W2 m ρ c = Wv
    after_results <;> rfl
  exact h.trans (aggK_congr (xw_l1 m ρ c) (arg_at2 m ρ c main_arg1 (by decide)) (arg_at2 m ρ c main_arg2 (by decide)))

/-- The messages' bias row. -/
theorem brow_l1 (c : Dev nD) : W3 m ρ c (Proc.devRef .tc main_v12) = shapeCast S1x64 (m ((c : Thread nD τ).loc main_arg5)) shapeCasts_S64_S1x64 := by
  have h : W3 m ρ c (Proc.devRef .tc main_v12)
      = shapeCast S1x64 (W2 m ρ c (Proc.devRef .tc main_arg5)) shapeCasts_S64_S1x64 := by
    show StableHlo.after hostOps1 (W2 m ρ c) (Proc.devRef .tc main_v12) = _
    generalize W2 m ρ c = Wv
    after_results <;> rfl
  rw [h, arg_at2 m ρ c main_arg5 (by decide)]

/-- The combining call's output is the layer of the specification. -/
theorem layer1 (c : Dev nD) : W4 m ρ c (Proc.devRef .tc main_v13) = (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine ((W4_arr m ρ c 3).trans (Layers.array1 (V3 m ρ) c)).trans ?_
  have h1 : V3 m ρ c main_v11 = _ := agg_l1 m ρ c
  have h2 : V3 m ρ c main_v12 = _ := brow_l1 m ρ c
  have h3 : V3 m ρ c main_v1_1 = _ := (host1_keeps m ρ c main_v1_1 (by decide)).trans (res_l1 m ρ c)
  rw [h1, h2, h3]
  exact Cert.Gcn.layer74_eq _ _ _ _ _ _ _ shapeCasts_S64_S1x64

/-! ## Layer 2 -/

/-- The residual branch's bias row as the projection call finds it: the bias vector as one row. -/
theorem rrow_l2 (c : Dev nD) : W5 m ρ c (Proc.devRef .tc main_v14) = shapeCast S1x64 (m ((c : Thread nD τ).loc main_arg11)) shapeCasts_S64_S1x64 := by
  have h : W5 m ρ c (Proc.devRef .tc main_v14)
      = shapeCast S1x64 (W4 m ρ c (Proc.devRef .tc main_arg11)) shapeCasts_S64_S1x64 := by
    show StableHlo.after hostOps2 (W4 m ρ c) (Proc.devRef .tc main_v14) = _
    generalize W4 m ρ c = Wv
    after_results <;> rfl
  rw [h, arg_at4 m ρ c main_arg11 (by decide)]

/-- After the projection call: the layer's input times the first weight matrix. -/
theorem xw_l2 (c : Dev nD) : W6 m ρ c (Proc.devRef .tc main_v15_0) = (DenseLayer.prod (a := 100000) (k := 64) (b := 64) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg8))) :=
  ((W6_arr m ρ c 4).trans (Layers.array2_4 (V5 m ρ) c)).trans
    (congrArg₂ (DenseLayer.prod (a := 100000) (k := 64) (b := 64)) ((host2_keeps m ρ c main_v13 (by decide)).trans (layer1 m ρ c)) (arg_at5 m ρ c main_arg8 (by decide)))

/-- And the residual branch: the positive part of the input times the second weight matrix plus its bias. -/
theorem res_l2 (c : Dev nD) : W6 m ρ c (Proc.devRef .tc main_v15_1) = (DenseLayer.biasRelu (a := 100000) (b := 64) (DenseLayer.prod (a := 100000) (k := 64) (b := 64) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg10))) (shapeCast S1x64 (m ((c : Thread nD τ).loc main_arg11)) shapeCasts_S64_S1x64)) :=
  ((W6_arr m ρ c 5).trans (Layers.array2_5 (V5 m ρ) c)).trans
    (congrArg₂ (DenseLayer.biasRelu (a := 100000) (b := 64))
      (congrArg₂ (DenseLayer.prod (a := 100000) (k := 64) (b := 64)) ((host2_keeps m ρ c main_v13 (by decide)).trans (layer1 m ρ c)) (arg_at5 m ρ c main_arg10 (by decide)))
      (rrow_l2 m ρ c))

/-- After the host stretch: the messages summed over incoming edges. -/
theorem agg_l2 (c : Dev nD) :
    W7 m ρ c (Proc.devRef .tc main_v25) = Cert.Gcn.aggregate (F := Ideal) (DenseLayer.prod (a := 100000) (k := 64) (b := 64) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg2)) := by
  have h : W7 m ρ c (Proc.devRef .tc main_v25)
      = aggK (W6 m ρ c (Proc.devRef .tc main_v15_0)) (W6 m ρ c (Proc.devRef .tc main_arg1)) (W6 m ρ c (Proc.devRef .tc main_arg2)) := by
    show StableHlo.after hostOps3 (W6 m ρ c) (Proc.devRef .tc main_v25) = _
    generalize W6 m ρ c = Wv
    after_results <;> rfl
  exact h.trans (aggK_congr (xw_l2 m ρ c) (arg_at6 m ρ c main_arg1 (by decide)) (arg_at6 m ρ c main_arg2 (by decide)))

/-- The messages' bias row. -/
theorem brow_l2 (c : Dev nD) : W7 m ρ c (Proc.devRef .tc main_v26) = shapeCast S1x64 (m ((c : Thread nD τ).loc main_arg9)) shapeCasts_S64_S1x64 := by
  have h : W7 m ρ c (Proc.devRef .tc main_v26)
      = shapeCast S1x64 (W6 m ρ c (Proc.devRef .tc main_arg9)) shapeCasts_S64_S1x64 := by
    show StableHlo.after hostOps3 (W6 m ρ c) (Proc.devRef .tc main_v26) = _
    generalize W6 m ρ c = Wv
    after_results <;> rfl
  rw [h, arg_at6 m ρ c main_arg9 (by decide)]

/-- The combining call's output is the layer of the specification. -/
theorem layer2 (c : Dev nD) : W8 m ρ c (Proc.devRef .tc main_v27) = (Cert.Gcn.layer64 (F := Ideal) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) := by
  refine ((W8_arr m ρ c 3).trans (Layers.array3 (V7 m ρ) c)).trans ?_
  have h1 : V7 m ρ c main_v25 = _ := agg_l2 m ρ c
  have h2 : V7 m ρ c main_v26 = _ := brow_l2 m ρ c
  have h3 : V7 m ρ c main_v15_1 = _ := (host3_keeps m ρ c main_v15_1 (by decide)).trans (res_l2 m ρ c)
  rw [h1, h2, h3]
  exact Cert.Gcn.layer64_eq _ _ _ _ _ _ _ shapeCasts_S64_S1x64

/-! ## Layer 3 -/

/-- The residual branch's bias row as the projection call finds it: the bias vector as one row. -/
theorem rrow_l3 (c : Dev nD) : W9 m ρ c (Proc.devRef .tc main_v28) = shapeCast S1x64 (m ((c : Thread nD τ).loc main_arg15)) shapeCasts_S64_S1x64 := by
  have h : W9 m ρ c (Proc.devRef .tc main_v28)
      = shapeCast S1x64 (W8 m ρ c (Proc.devRef .tc main_arg15)) shapeCasts_S64_S1x64 := by
    show StableHlo.after hostOps4 (W8 m ρ c) (Proc.devRef .tc main_v28) = _
    generalize W8 m ρ c = Wv
    after_results <;> rfl
  rw [h, arg_at8 m ρ c main_arg15 (by decide)]

/-- After the projection call: the layer's input times the first weight matrix. -/
theorem xw_l3 (c : Dev nD) : W10 m ρ c (Proc.devRef .tc main_v29_0) = (DenseLayer.prod (a := 100000) (k := 64) (b := 64) (Cert.Gcn.layer64 (F := Ideal) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg12))) :=
  ((W10_arr m ρ c 4).trans (Layers.array4_4 (V9 m ρ) c)).trans
    (congrArg₂ (DenseLayer.prod (a := 100000) (k := 64) (b := 64)) ((host4_keeps m ρ c main_v27 (by decide)).trans (layer2 m ρ c)) (arg_at9 m ρ c main_arg12 (by decide)))

/-- And the residual branch: the positive part of the input times the second weight matrix plus its bias. -/
theorem res_l3 (c : Dev nD) : W10 m ρ c (Proc.devRef .tc main_v29_1) = (DenseLayer.biasRelu (a := 100000) (b := 64) (DenseLayer.prod (a := 100000) (k := 64) (b := 64) (Cert.Gcn.layer64 (F := Ideal) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg14))) (shapeCast S1x64 (m ((c : Thread nD τ).loc main_arg15)) shapeCasts_S64_S1x64)) :=
  ((W10_arr m ρ c 5).trans (Layers.array4_5 (V9 m ρ) c)).trans
    (congrArg₂ (DenseLayer.biasRelu (a := 100000) (b := 64))
      (congrArg₂ (DenseLayer.prod (a := 100000) (k := 64) (b := 64)) ((host4_keeps m ρ c main_v27 (by decide)).trans (layer2 m ρ c)) (arg_at9 m ρ c main_arg14 (by decide)))
      (rrow_l3 m ρ c))

/-- After the host stretch: the messages summed over incoming edges. -/
theorem agg_l3 (c : Dev nD) :
    W11 m ρ c (Proc.devRef .tc main_v39) = Cert.Gcn.aggregate (F := Ideal) (DenseLayer.prod (a := 100000) (k := 64) (b := 64) (Cert.Gcn.layer64 (F := Ideal) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg12))) (m ((c : Thread nD τ).loc main_arg1)) (m ((c : Thread nD τ).loc main_arg2)) := by
  have h : W11 m ρ c (Proc.devRef .tc main_v39)
      = aggK (W10 m ρ c (Proc.devRef .tc main_v29_0)) (W10 m ρ c (Proc.devRef .tc main_arg1)) (W10 m ρ c (Proc.devRef .tc main_arg2)) := by
    show StableHlo.after hostOps5 (W10 m ρ c) (Proc.devRef .tc main_v39) = _
    generalize W10 m ρ c = Wv
    after_results <;> rfl
  exact h.trans (aggK_congr (xw_l3 m ρ c) (arg_at10 m ρ c main_arg1 (by decide)) (arg_at10 m ρ c main_arg2 (by decide)))

/-- The messages' bias row. -/
theorem brow_l3 (c : Dev nD) : W11 m ρ c (Proc.devRef .tc main_v40) = shapeCast S1x64 (m ((c : Thread nD τ).loc main_arg13)) shapeCasts_S64_S1x64 := by
  have h : W11 m ρ c (Proc.devRef .tc main_v40)
      = shapeCast S1x64 (W10 m ρ c (Proc.devRef .tc main_arg13)) shapeCasts_S64_S1x64 := by
    show StableHlo.after hostOps5 (W10 m ρ c) (Proc.devRef .tc main_v40) = _
    generalize W10 m ρ c = Wv
    after_results <;> rfl
  rw [h, arg_at10 m ρ c main_arg13 (by decide)]

/-- The combining call's output is the layer of the specification. -/
theorem layer3 (c : Dev nD) : W12 m ρ c (Proc.devRef .tc main_v41) = (Cert.Gcn.layer64 (F := Ideal) (Cert.Gcn.layer64 (F := Ideal) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg12)) (m ((c : Thread nD τ).loc main_arg13)) (m ((c : Thread nD τ).loc main_arg14)) (m ((c : Thread nD τ).loc main_arg15))) := by
  refine ((W12_arr m ρ c 3).trans (Layers.array5 (V11 m ρ) c)).trans ?_
  have h1 : V11 m ρ c main_v39 = _ := agg_l3 m ρ c
  have h2 : V11 m ρ c main_v40 = _ := brow_l3 m ρ c
  have h3 : V11 m ρ c main_v29_1 = _ := (host5_keeps m ρ c main_v29_1 (by decide)).trans (res_l3 m ρ c)
  rw [h1, h2, h3]
  exact Cert.Gcn.layer64_eq _ _ _ _ _ _ _ shapeCasts_S64_S1x64

/-! ## Pooling and the head -/

/-- After the last host stretch: the node rows summed per graph. -/
theorem pooled (c : Dev nD) : W13 m ρ c (Proc.devRef .tc main_v44) = Cert.Gcn.pool (F := Ideal) (Cert.Gcn.layer64 (F := Ideal) (Cert.Gcn.layer64 (F := Ideal) (Cert.Gcn.layer74 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg12)) (m ((c : Thread nD τ).loc main_arg13)) (m ((c : Thread nD τ).loc main_arg14)) (m ((c : Thread nD τ).loc main_arg15))) (m ((c : Thread nD τ).loc main_arg3)) := by
  have h : W13 m ρ c (Proc.devRef .tc main_v44) = poolK (W12 m ρ c (Proc.devRef .tc main_v41)) (W12 m ρ c (Proc.devRef .tc main_arg3)) := by
    show StableHlo.after hostOps6 (W12 m ρ c) (Proc.devRef .tc main_v44) = _
    generalize W12 m ρ c = Wv
    after_results <;> rfl
  rw [h, arg_at12 m ρ c main_arg3 (by decide), layer3 m ρ c, poolK_eq]

/-- The head's two bias rows. -/
theorem hrow1 (c : Dev nD) : W13 m ρ c (Proc.devRef .tc main_v45) = shapeCast S1x128 (m ((c : Thread nD τ).loc main_arg17)) shapeCasts_S128_S1x128 := by
  have h : W13 m ρ c (Proc.devRef .tc main_v45) = shapeCast S1x128 (W12 m ρ c (Proc.devRef .tc main_arg17)) shapeCasts_S128_S1x128 := by
    show StableHlo.after hostOps6 (W12 m ρ c) (Proc.devRef .tc main_v45) = _
    generalize W12 m ρ c = Wv
    after_results <;> rfl
  rw [h, arg_at12 m ρ c main_arg17 (by decide)]
theorem hrow2 (c : Dev nD) : W13 m ρ c (Proc.devRef .tc main_v46) = shapeCast S1x1 (m ((c : Thread nD τ).loc main_arg19)) shapeCasts_S1_S1x1 := by
  have h : W13 m ρ c (Proc.devRef .tc main_v46) = shapeCast S1x1 (W12 m ρ c (Proc.devRef .tc main_arg19)) shapeCasts_S1_S1x1 := by
    show StableHlo.after hostOps6 (W12 m ρ c) (Proc.devRef .tc main_v46) = _
    generalize W12 m ρ c = Wv
    after_results <;> rfl
  rw [h, arg_at12 m ρ c main_arg19 (by decide)]

/-- THE RESULT: at the return the result buffer holds the network of the launch arrays. -/
theorem result (c : Dev nD) :
    W14 m ρ c (Proc.devRef .tc main_v47)
      = Cert.Gcn.forward (F := Ideal) (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17))
          (m ((c : Thread nD τ).loc main_arg18))
          (m ((c : Thread nD τ).loc main_arg19)) := by
  refine ((W14_arr m ρ c 5).trans (Layers.array6 (V13 m ρ) c)).trans ?_
  have h1 : V13 m ρ c main_v44 = _ := pooled m ρ c
  have h2 : V13 m ρ c main_v45 = _ := hrow1 m ρ c
  have h3 : V13 m ρ c main_v46 = _ := hrow2 m ρ c
  have h4 : V13 m ρ c main_arg16 = _ := arg_at13 m ρ c main_arg16 (by decide)
  have h5 : V13 m ρ c main_arg18 = _ := arg_at13 m ρ c main_arg18 (by decide)
  rw [h1, h2, h3, h4, h5]
  exact Cert.Gcn.head_eq _ _ _ _ _ shapeCasts_S128_S1x128 shapeCasts_S1_S1x1

end Cert.KernelIdeal.Named

end
-- ==== Proof.RefSide.lean ====
/-
  The plain jnp program's result is the network of the launch arrays: its composed term, with the pieces named.
-/
import proofs.«181861_j11785390260437_1_alg».proof.Proof.Gen.ReferenceIdeal.Run
import proofs.«181861_j11785390260437_1_alg».proof.Proof.Spec

set_option maxRecDepth 16384

noncomputable section

namespace Cert.ReferenceIdeal.RefValue

open Cert.ReferenceIdeal Cert.ReferenceIdeal.Value Idealize.ShloMosaic Idealize.ShloMosaic.TcCoe Idealize.SL.Sem

variable {F : FTy → Type} [FloatOps F]

/-- The run's result term is the network applied to the launch contents of the twenty arguments. -/
theorem result_eq (m : (ℓ : Loc nD τ sig) → Buf (Elt F) ℓ) (c : Dev nD) :
    res_main_v74 m c
      = Cert.Gcn.forward (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19)) := by
  unfold res_main_v74 Cert.Gcn.forward Cert.Gcn.head Cert.Gcn.pool Cert.Gcn.layer64 Cert.Gcn.layer74 Cert.Gcn.combine
    Cert.Gcn.biasRelu64 Cert.Gcn.aggregate
  rfl

end Cert.ReferenceIdeal.RefValue

end
-- ==== Proof.lean ====
/-
  A three-layer graph convolution network with a residual branch, sum pooling and a two-layer head: the kernel program
  (seven kernel calls among host stretches) against the plain jnp program, on the extended reals.

  Both programs compute, layer by layer, relu (A (x W) + b) + relu (x R + rb), where A sums the rows of x W over the
  incoming edges of each node, then sum the node rows per graph and apply relu (g Wm1 + bm1) Wm2 + bm2. The kernel
  program does the dense parts in kernel calls blocked over the node rows (a narrower float format for the products'
  operands, which changes nothing on the extended reals) and leaves the edge aggregation and the pooling to the host,
  where they are the same operations as in the plain program. No algebraic law beyond reading a matrix product as a sum
  is needed, and no finiteness: the two sides are the same composition, so the precondition is never opened.

  The frames are the generated ones (the plain program's is its run with the result dropped). The idealization rewrote no
  operation, so there is nothing to preserve. For the value claim: the kernel program's run ends with the result buffer at
  the last boundary's contents, which the chain of boundaries shows to be the network of the launch arrays; the plain
  program's run ends at its composed term, which is that same network by unfolding names; the two launch memories agree
  on the arguments.
-/
import proofs.«181861_j11785390260437_1_alg».proof.Defs
import proofs.«181861_j11785390260437_1_alg».proof.Proof.Gen.Kernel
import proofs.«181861_j11785390260437_1_alg».proof.Proof.Gen.Kernel.Skeleton
import proofs.«181861_j11785390260437_1_alg».proof.Proof.Gen.Kernel.Launch
import proofs.«181861_j11785390260437_1_alg».proof.Proof.Gen.Kernel.Points
import proofs.«181861_j11785390260437_1_alg».proof.Proof.Gen.Kernel.Frame
import proofs.«181861_j11785390260437_1_alg».proof.Proof.Gen.KernelIdeal
import proofs.«181861_j11785390260437_1_alg».proof.Proof.Gen.KernelIdeal.Skeleton
import proofs.«181861_j11785390260437_1_alg».proof.Proof.Gen.KernelIdeal.Launch
import proofs.«181861_j11785390260437_1_alg».proof.Proof.Gen.KernelIdeal.Points
import proofs.«181861_j11785390260437_1_alg».proof.Proof.Gen.KernelIdeal.Frame
import proofs.«181861_j11785390260437_1_alg».proof.Proof.Gen.ReferenceIdeal
import proofs.«181861_j11785390260437_1_alg».proof.Proof.Gen.ReferenceIdeal.Run
import proofs.«181861_j11785390260437_1_alg».proof.Proof.Gen.Pre_finite_inputs
import proofs.«181861_j11785390260437_1_alg».proof.Proof.KernelRun
import proofs.«181861_j11785390260437_1_alg».proof.Proof.Chain
import proofs.«181861_j11785390260437_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- Both runs end with the result at the network of the launch arrays, and the launch arrays agree. -/
theorem algebraic : Cert.algebraic_KernelIdeal_ReferenceIdeal := by
  intro m ρ m' ρ' _ hagree
  refine ⟨fun c => Cert.Gcn.forward (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Named.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19⟩ := hagree c
    rw [Cert.ReferenceIdeal.RefValue.result_eq, a0, a1, a2, a3, a4, a5, a6, a7, a8, a9, a10, a11, a12, a13, a14, a15, a16, a17, a18, a19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
